-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S1x128 : Shape := ⟨2, ![1, 128]⟩

abbrev nBuf : Space → Nat
  | .hbm => 88
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .bf16⟩
  | .hbm, ⟨47, _⟩ => ⟨S128x128, .bf16⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S4000x128_S128 : S4000x128.Reduces [0] S128
  shapeCasts_S128_S1x128 : S128.ShapeCasts S1x128
  bcast_S_S1x128 : S_.BroadcastsInDim S1x128 (![] : Fin 0 → Fin S1x128.rank)
  broadcasts_S1x128_S4000x128 : S1x128.Broadcasts S4000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v30) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel's run with its RESULT named. The generated frame certificate runs @main as eight segments
  (five stretches of host operations, three pallas regions) and reads, of the final state, only the six argument
  arrays. The same run leaves EVERY unscoped buffer at the last boundary's contents `Gen.W8`, so reading one more
  buffer of that final state — the result array `main_v64`, region 2's output — gives the run's value: the result
  array ends at `Gen.W8 m ρ c main_v64`, which the sibling modules open region by region.
-/
import proofs.«114614_j66383014527704_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates, nothing faulting, with the result array
    at the last segment boundary's contents and the six argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.RefChain.lean ====
/-
  The pre-normalisation array `out` as ONE function of the matrix product `h`: gather the rows of `h` the edge
  sources name, scale each by the symmetric normalisation of its edge, scatter-add them at the edge targets, add the
  bias. The reference computes `h` by one whole `dot_general`; the kernel by a pallas region. Everything after `h`
  is the same chain of host operations in both programs, so it is named once here and never opened by the bridge.
-/
import proofs.«114614_j66383014527704_1_alg».proof.Proof.RefRead

noncomputable section

namespace Cert.ReferenceIdeal.RefChain

open Cert.ReferenceIdeal Cert.ReferenceIdeal.Read Idealize.ShloMosaic

variable {F : FTy → Type} [FloatOps F]

/-- `out` from the matrix product `h`, the edge list `e` and the bias `b`. -/
def outOf (h : (⟨S100000x128, .f32⟩ : BufTy).Contents (Elt F)) (e : (⟨S2x1600000, .i32⟩ : BufTy).Contents (Elt F))
    (b : (⟨S128, .f32⟩ : BufTy).Contents (Elt F)) : (⟨S100000x128, .f32⟩ : BufTy).Contents (Elt F) :=
  addf (Host.scatterAdd scatter_S100000x128_S1700000x1_S1700000x128_1_0_0_1 (val_main_v41 (F := F)) (val_main_v42 (F := F) e)
    (mulf (Host.gather gather_S100000x128_S1700000x1_S1700000x128_1_0_n_n_0_1_1128 h (val_main_v36 (F := F) e)) (val_main_v39 (F := F) e)))
    (val_main_v45 (F := F) b)

/-- The reference's `out` is that function of its own matrix product. -/
theorem out_eq (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F)) :
    val_main_v46 (F := F) x0 x1 x2 x3 = outOf (val_main_v30 (F := F) x0 x2) x1 x3 := rfl

end Cert.ReferenceIdeal.RefChain

end
-- ==== Proof.HostReads.lean ====
/-
  What the idealized kernel's pallas regions find in their input arrays, read back through @main's host operations to
  the launch memory `m`. Region 0 finds `x` and `W` through a change of float format (the identity on extended
  reals). Region 1 finds `out`: the shared gather / scale / scatter-add / bias chain applied to region 0's output
  array (the matrix product), the edge list and the bias. Region 2 finds `out` again and the scale and shift rows
  that the host computes from region 1's two outputs (the column sums and sums of squares), `gamma` and `beta`.
  The host operations are the reference's own, statement by statement, so each value is stated as the reference's
  stage function of the same arguments.
-/
import proofs.«114614_j66383014527704_1_alg».proof.Proof.Gen.KernelIdeal.Frame
import proofs.«114614_j66383014527704_1_alg».proof.Proof.RefChain
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Idealize.ShloMosaic.Ideal) ℓ) (ρ : Dev nD → PrngReg)

/-- Region 0's first input array is `x` in the narrower format. -/
theorem x_in (c : Dev nD) : @Eq (FVec Idealize.ShloMosaic.Ideal S100000x128 .bf16) (V3 m ρ c main_v30)
    (truncf .bf16 (m ((c : Thread nD τ).loc main_arg0) : FVec Idealize.ShloMosaic.Ideal S100000x128 .f32) bitsLt_bf16_f32) := by
  show StableHlo.after hostOps0_2 (W2 m ρ c) (Proc.devRef .tc main_v30) = _
  after_results_simp

/-- Region 0's second input array is `W` in the narrower format. -/
theorem w_in (c : Dev nD) : @Eq (FVec Idealize.ShloMosaic.Ideal S128x128 .bf16) (V3 m ρ c main_v31)
    (truncf .bf16 (m ((c : Thread nD τ).loc main_arg2) : FVec Idealize.ShloMosaic.Ideal S128x128 .f32) bitsLt_bf16_f32) := by
  show StableHlo.after hostOps0_2 (W2 m ρ c) (Proc.devRef .tc main_v31) = _
  after_results_simp

/-- The buffers after @main's first seven host operations: the iota, the two rows of the edge list, and the source
    and target index vectors (each row followed by the self loops). -/
def Wa (c : Dev nD) : Valuation τ sig (Elt Idealize.ShloMosaic.Ideal) := StableHlo.after (hostOps0.take 7) (W0 m ρ c)

/-- The first stretch is those seven operations, then its other eleven. -/
theorem w1_eq (c : Dev nD) : W1 m ρ c = StableHlo.after (hostOps0.drop 7) (Wa m ρ c) := by
  show StableHlo.after hostOps0 (W0 m ρ c) = _
  unfold Wa
  rw [← StableHlo.after_append, List.take_append_drop]

/-- The source index vector is the reference's. -/
theorem rows_in (c : Dev nD) : @Eq ((⟨S1700000, .i32⟩ : BufTy).Contents (Elt Idealize.ShloMosaic.Ideal)) (Wa m ρ c (Proc.devRef .tc main_v3))
    (Cert.ReferenceIdeal.Read.val_main_v3 (F := Idealize.ShloMosaic.Ideal) (m ((c : Thread nD τ).loc main_arg1))) := by
  unfold Wa
  simp only [hostOps0, List.take_succ_cons, List.take_zero]
  after_results_simp
  rfl

/-- The target index vector is the reference's. -/
theorem cols_in (c : Dev nD) : @Eq ((⟨S1700000, .i32⟩ : BufTy).Contents (Elt Idealize.ShloMosaic.Ideal)) (Wa m ρ c (Proc.devRef .tc main_v6))
    (Cert.ReferenceIdeal.Read.val_main_v6 (F := Idealize.ShloMosaic.Ideal) (m ((c : Thread nD τ).loc main_arg1))) := by
  unfold Wa
  simp only [hostOps0, List.take_succ_cons, List.take_zero]
  after_results_simp
  rfl

/-- Opening region 0's entry contents down to the cut: the three stretches before region 0 over `Wa`. -/
theorem w3_eq (c : Dev nD) : W3 m ρ c
    = StableHlo.after hostOps0_2 (StableHlo.after hostOps0_1 (StableHlo.after (hostOps0.drop 7) (Wa m ρ c))) := by
  show StableHlo.after hostOps0_2 (StableHlo.after hostOps0_1 (W1 m ρ c)) = _
  rw [w1_eq]

/-- At region 0's entry the source index vector is still the reference's. -/
theorem rows3 (c : Dev nD) : @Eq ((⟨S1700000, .i32⟩ : BufTy).Contents (Elt Idealize.ShloMosaic.Ideal)) (W3 m ρ c (Proc.devRef .tc main_v3))
    (Cert.ReferenceIdeal.Read.val_main_v3 (F := Idealize.ShloMosaic.Ideal) (m ((c : Thread nD τ).loc main_arg1))) := by
  rw [w3_eq]
  simp only [hostOps0, List.drop_succ_cons, List.drop_zero]
  after_results_simp
  exact rows_in m ρ c

/-- So is the target index vector. -/
theorem cols3 (c : Dev nD) : @Eq ((⟨S1700000, .i32⟩ : BufTy).Contents (Elt Idealize.ShloMosaic.Ideal)) (W3 m ρ c (Proc.devRef .tc main_v6))
    (Cert.ReferenceIdeal.Read.val_main_v6 (F := Idealize.ShloMosaic.Ideal) (m ((c : Thread nD τ).loc main_arg1))) := by
  rw [w3_eq]
  simp only [hostOps0, List.drop_succ_cons, List.drop_zero]
  after_results_simp
  exact cols_in m ρ c

/-- Argument 3 (the bias) is as launched after the first seven operations, -/
theorem arg3_a (c : Dev nD) : Wa m ρ c (Proc.devRef .tc main_arg3) = m ((c : Thread nD τ).loc main_arg3) := by
  unfold Wa
  simp only [hostOps0, List.take_succ_cons, List.take_zero]
  after_results_simp

/-- at region 0's entry, -/
theorem arg3_3 (c : Dev nD) : W3 m ρ c (Proc.devRef .tc main_arg3) = m ((c : Thread nD τ).loc main_arg3) := by
  rw [w3_eq]
  simp only [hostOps0, List.drop_succ_cons, List.drop_zero]
  after_results_simp
  exact arg3_a m ρ c

/-- and at region 1's exit. -/
theorem arg3_6 (c : Dev nD) : W6 m ρ c (Proc.devRef .tc main_arg3) = m ((c : Thread nD τ).loc main_arg3) := by
  rw [W6_of_ne m ρ c main_arg3 (by decide)]
  show StableHlo.after hostOps1 (W4 m ρ c) (Proc.devRef .tc main_arg3) = _
  after_results_simp
  rw [W4_of_ne m ρ c main_arg3 (by decide)]
  exact arg3_3 m ρ c

/-- Argument 4 (gamma) is as launched after the first seven operations, -/
theorem arg4_a (c : Dev nD) : Wa m ρ c (Proc.devRef .tc main_arg4) = m ((c : Thread nD τ).loc main_arg4) := by
  unfold Wa
  simp only [hostOps0, List.take_succ_cons, List.take_zero]
  after_results_simp

/-- at region 0's entry, -/
theorem arg4_3 (c : Dev nD) : W3 m ρ c (Proc.devRef .tc main_arg4) = m ((c : Thread nD τ).loc main_arg4) := by
  rw [w3_eq]
  simp only [hostOps0, List.drop_succ_cons, List.drop_zero]
  after_results_simp
  exact arg4_a m ρ c

/-- and at region 1's exit. -/
theorem arg4_6 (c : Dev nD) : W6 m ρ c (Proc.devRef .tc main_arg4) = m ((c : Thread nD τ).loc main_arg4) := by
  rw [W6_of_ne m ρ c main_arg4 (by decide)]
  show StableHlo.after hostOps1 (W4 m ρ c) (Proc.devRef .tc main_arg4) = _
  after_results_simp
  rw [W4_of_ne m ρ c main_arg4 (by decide)]
  exact arg4_3 m ρ c

/-- Argument 5 (beta) is as launched after the first seven operations, -/
theorem arg5_a (c : Dev nD) : Wa m ρ c (Proc.devRef .tc main_arg5) = m ((c : Thread nD τ).loc main_arg5) := by
  unfold Wa
  simp only [hostOps0, List.take_succ_cons, List.take_zero]
  after_results_simp

/-- at region 0's entry, -/
theorem arg5_3 (c : Dev nD) : W3 m ρ c (Proc.devRef .tc main_arg5) = m ((c : Thread nD τ).loc main_arg5) := by
  rw [w3_eq]
  simp only [hostOps0, List.drop_succ_cons, List.drop_zero]
  after_results_simp
  exact arg5_a m ρ c

/-- and at region 1's exit. -/
theorem arg5_6 (c : Dev nD) : W6 m ρ c (Proc.devRef .tc main_arg5) = m ((c : Thread nD τ).loc main_arg5) := by
  rw [W6_of_ne m ρ c main_arg5 (by decide)]
  show StableHlo.after hostOps1 (W4 m ρ c) (Proc.devRef .tc main_arg5) = _
  after_results_simp
  rw [W4_of_ne m ρ c main_arg5 (by decide)]
  exact arg5_3 m ρ c

/-- The outlined `where` (three operations): the selected array is `select` of the mask, the reciprocal square
    roots and the broadcast zero, whatever the buffers held before. -/
theorem where_in (Fv : Valuation τ sig (Elt Idealize.ShloMosaic.Ideal)) : @Eq (FVec Idealize.ShloMosaic.Ideal S100000 .f32)
    (StableHlo.after hostOps0_1 Fv (Proc.devRef .tc main_v14))
    (select (Fv (Proc.devRef .tc main_v12)) (Fv (Proc.devRef .tc main_v13))
      (broadcastInDim S100000 ![] bcast_S_S100000 (id (Fv (Proc.devRef .tc main_cst_2))))) := by
  after_results_simp
  rfl

/-- The outlined `where` writes neither index vector. -/
theorem where_rows (Fv : Valuation τ sig (Elt Idealize.ShloMosaic.Ideal)) :
    StableHlo.after hostOps0_1 Fv (Proc.devRef .tc main_v3) = Fv (Proc.devRef .tc main_v3) := by
  after_results_simp
theorem where_cols (Fv : Valuation τ sig (Elt Idealize.ShloMosaic.Ideal)) :
    StableHlo.after hostOps0_1 Fv (Proc.devRef .tc main_v6) = Fv (Proc.devRef .tc main_v6) := by
  after_results_simp

/-- The per-edge normalisation (degrees by scatter-add of ones, reciprocal square roots where the degree is positive,
    gathered at both ends of each edge and multiplied) is the reference's: the same operations of the same index
    vectors. -/
theorem norm3 (c : Dev nD) : @Eq ((⟨S1700000, .f32⟩ : BufTy).Contents (Elt Idealize.ShloMosaic.Ideal)) (W3 m ρ c (Proc.devRef .tc main_v29))
    (Cert.ReferenceIdeal.Read.val_main_v29 (F := Idealize.ShloMosaic.Ideal) (m ((c : Thread nD τ).loc main_arg1))) := by
  rw [w3_eq]
  generalize hG : StableHlo.after hostOps0_1 (StableHlo.after (hostOps0.drop 7) (Wa m ρ c)) = G
  after_results_simp
  subst hG
  rw [where_in, where_rows, where_cols]
  simp only [hostOps0, List.drop_succ_cons, List.drop_zero]
  after_results_simp
  rw [rows_in m ρ c, cols_in m ρ c]
  simp only [Cert.ReferenceIdeal.Read.val_main_v29, Cert.ReferenceIdeal.Read.val_main_v28, Cert.ReferenceIdeal.Read.val_main_v27, Cert.ReferenceIdeal.Read.val_main_v26, Cert.ReferenceIdeal.Read.val_main_v25, Cert.ReferenceIdeal.Read.val_main_v24, Cert.ReferenceIdeal.Read.val_main_c_5, Cert.ReferenceIdeal.Read.val_main_v23, Cert.ReferenceIdeal.Read.val_main_v22, Cert.ReferenceIdeal.Read.val_main_c_4, Cert.ReferenceIdeal.Read.val_main_v21, Cert.ReferenceIdeal.Read.val_main_v20, Cert.ReferenceIdeal.Read.val_main_v19, Cert.ReferenceIdeal.Read.val_main_v18, Cert.ReferenceIdeal.Read.val_main_v17, Cert.ReferenceIdeal.Read.val_main_c_3, Cert.ReferenceIdeal.Read.val_main_v16, Cert.ReferenceIdeal.Read.val_main_v15, Cert.ReferenceIdeal.Read.val_main_c, Cert.ReferenceIdeal.Read.val_main_v14, Cert.ReferenceIdeal.Read.val_main_call0_v1, Cert.ReferenceIdeal.Read.val_main_call0_v0, Cert.ReferenceIdeal.Read.val_main_cst_2, Cert.ReferenceIdeal.Read.val_main_v13, Cert.ReferenceIdeal.Read.val_main_v12, Cert.ReferenceIdeal.Read.val_main_v11, Cert.ReferenceIdeal.Read.val_main_cst_1, Cert.ReferenceIdeal.Read.val_main_v10, Cert.ReferenceIdeal.Read.val_main_v9, Cert.ReferenceIdeal.Read.val_main_v8, Cert.ReferenceIdeal.Read.val_main_cst_0, Cert.ReferenceIdeal.Read.val_main_v7, Cert.ReferenceIdeal.Read.val_main_cst]
  rfl

/-- Region 1's input array is `out`: the shared chain applied to region 0's output array as the run leaves it, the
    edge list and the bias. -/
theorem out_in (c : Dev nD) : @Eq (FVec Idealize.ShloMosaic.Ideal S100000x128 .f32) (V5 m ρ c main_v48)
    (Cert.ReferenceIdeal.RefChain.outOf (F := Idealize.ShloMosaic.Ideal) (W4 m ρ c (Proc.devRef .tc main_v32))
      (m ((c : Thread nD τ).loc main_arg1)) (m ((c : Thread nD τ).loc main_arg3))) := by
  show StableHlo.after hostOps1 (W4 m ρ c) (Proc.devRef .tc main_v48) = _
  after_results_simp
  rw [W4_of_ne m ρ c main_v3 (by decide), W4_of_ne m ρ c main_v6 (by decide), W4_of_ne m ρ c main_v29 (by decide),
    W4_of_ne m ρ c main_arg3 (by decide)]
  rw [rows3 m ρ c, cols3 m ρ c, norm3 m ρ c, arg3_3 m ρ c]
  simp only [Cert.ReferenceIdeal.RefChain.outOf, Cert.ReferenceIdeal.Read.val_main_v45, Cert.ReferenceIdeal.Read.val_main_v44, Cert.ReferenceIdeal.Read.val_main_v42, Cert.ReferenceIdeal.Read.val_main_v41, Cert.ReferenceIdeal.Read.val_main_cst_8, Cert.ReferenceIdeal.Read.val_main_v39, Cert.ReferenceIdeal.Read.val_main_v38, Cert.ReferenceIdeal.Read.val_main_v36, Cert.ReferenceIdeal.Read.val_main_v35, Cert.ReferenceIdeal.Read.val_main_v34, Cert.ReferenceIdeal.Read.val_main_v33, Cert.ReferenceIdeal.Read.val_main_c_7, Cert.ReferenceIdeal.Read.val_main_v32, Cert.ReferenceIdeal.Read.val_main_v31, Cert.ReferenceIdeal.Read.val_main_c_6]
  rfl

/-- The mean row from the column sums: each sum divided by the number of rows. -/
def meanRow (s1 : FVec Idealize.ShloMosaic.Ideal S1x128 .f32) : FVec Idealize.ShloMosaic.Ideal S1x128 .f32 :=
  Host.divf s1 (broadcastInDim S1x128 ![] bcast_S_S1x128 (constant S_ .f32 0x47C35000#32))

/-- The scale row: `gamma` times the reciprocal square root of (mean of squares − mean² + ε). -/
def scaleRow (s1 s2 : FVec Idealize.ShloMosaic.Ideal S1x128 .f32) (g : FVec Idealize.ShloMosaic.Ideal S128 .f32) : FVec Idealize.ShloMosaic.Ideal S1x128 .f32 :=
  mulf (broadcastInDim S1x128 ![1] bcast_S128_S1x128_1 g)
    (Host.rsqrt (addf (subf (Host.divf s2 (broadcastInDim S1x128 ![] bcast_S_S1x128 (constant S_ .f32 0x47C35000#32)))
        (mulf (meanRow s1) (meanRow s1)))
      (broadcastInDim S1x128 ![] bcast_S_S1x128 (constant S_ .f32 0x3727C5AC#32))))

/-- The shift row: `beta` − mean · scale. -/
def shiftRow (s1 s2 : FVec Idealize.ShloMosaic.Ideal S1x128 .f32) (g b : FVec Idealize.ShloMosaic.Ideal S128 .f32) : FVec Idealize.ShloMosaic.Ideal S1x128 .f32 :=
  subf (broadcastInDim S1x128 ![1] bcast_S128_S1x128_1 b) (mulf (meanRow s1) (scaleRow s1 s2 g))

/-- Region 2's first input array is `out` again: no host operation after region 1 and no region writes it. -/
theorem out7 (c : Dev nD) : V7 m ρ c main_v48 = V5 m ρ c main_v48 := by
  show StableHlo.after hostOps2 (W6 m ρ c) (Proc.devRef .tc main_v48) = _
  after_results_simp
  exact ((W6_arr m ρ c 0).trans ((dat1 (V5 m ρ) c).arrAt_in 0 rfl _)).trans (A_eq1 (V5 m ρ) c 0)

/-- Region 2's scale row, from region 1's two output arrays and `gamma`. -/
theorem scale7 (c : Dev nD) : @Eq (FVec Idealize.ShloMosaic.Ideal S1x128 .f32) (V7 m ρ c main_v60)
    (scaleRow (W6 m ρ c (Proc.devRef .tc main_v49_0)) (W6 m ρ c (Proc.devRef .tc main_v49_1)) (m ((c : Thread nD τ).loc main_arg4))) := by
  show StableHlo.after hostOps2 (W6 m ρ c) (Proc.devRef .tc main_v60) = _
  after_results_simp
  rw [arg4_6 m ρ c]
  rfl

/-- Region 2's shift row, from the same and `beta`. -/
theorem shift7 (c : Dev nD) : @Eq (FVec Idealize.ShloMosaic.Ideal S1x128 .f32) (V7 m ρ c main_v63)
    (shiftRow (W6 m ρ c (Proc.devRef .tc main_v49_0)) (W6 m ρ c (Proc.devRef .tc main_v49_1)) (m ((c : Thread nD τ).loc main_arg4))
      (m ((c : Thread nD τ).loc main_arg5))) := by
  show StableHlo.after hostOps2 (W6 m ρ c) (Proc.devRef .tc main_v63) = _
  after_results_simp
  rw [arg4_6 m ρ c, arg5_6 m ρ c]
  rfl

end Cert.KernelIdeal.HostReads

end
-- ==== Proof.MatmulValue.lean ====
import proofs.«114614_j66383014527704_1_alg».proof.Proof.Gen.KernelIdeal.Frame
import Idealize.ShloMosaic.Lib.Pipeline.Value
import Idealize.ShloMosaic.Lib.ValueIdx
import Idealize.ShloMosaic.PureOps.Ideal.Laws

/-! # The first region computes the whole matrix product

The first region walks 25 grid points. At point t it stages rows 4000 t … 4000 t + 3999 of the [100000,128]
feature array and the whole [128,128] weight array, multiplies the two blocks into a zero accumulator, and
writes the [4000,128] result back as rows 4000 t … 4000 t + 3999 of the output array. Over the extended reals
a block product's entry (p, q) is the sum over k of the block's (p, k) times the weights' (k, q); the row
blocks are restrictions of one whole-array function, and the 25 row ranges tile the 100000 rows, so after the
run the output array is the product of the two arrays entry by entry. Sums of products only: nothing here
needs the entries to be finite. -/

noncomputable section

namespace Cert.KernelIdeal.MatmulValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The node features as the first region finds them: a [100000,128] array of extended reals. -/
abbrev X (c : Dev nD) : S100000x128.Idx → EReal := V c (Pipeline.arrRef spec0 0)

/-- The weights as the first region finds them: a [128,128] array of extended reals. -/
abbrev Wt (c : Dev nD) : S128x128.Idx → EReal := V c (Pipeline.arrRef spec0 1)

/-- The matrix product of a [100000,128] array and a [128,128] array, entry by entry: entry (r, q) is the
    sum over k of x (r, k) * w (k, q). -/
abbrev rowsTimes (x : S100000x128.Idx → EReal) (w : S128x128.Idx → EReal) : S100000x128.Idx → EReal :=
  fun i => ∑ k : Fin 128, x (ix2 (i 0) k) * w (ix2 k (i 1))

/-- In the block product, the left operand's index for output entry i and contraction index s has the
    output's row as its row, -/
theorem lhsRow (i : S4000x128.Idx) (s : dot_S4000x128_S128x128_S4000x128_1_0_0_1_n_n.contr.Idx) :
    (dot_S4000x128_S128x128_S4000x128_1_0_0_1_n_n.lhsIdx i s 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- and the contraction index as its column; -/
theorem lhsCol (i : S4000x128.Idx) (s : dot_S4000x128_S128x128_S4000x128_1_0_0_1_n_n.contr.Idx) :
    (dot_S4000x128_S128x128_S4000x128_1_0_0_1_n_n.lhsIdx i s 1).val = (s ⟨0, by decide⟩).val :=
  dot_S4000x128_S128x128_S4000x128_1_0_0_1_n_n.lhsIdx_val_of_single rfl i s
/-- the right operand's index has the contraction index as its row, -/
theorem rhsRow (i : S4000x128.Idx) (s : dot_S4000x128_S128x128_S4000x128_1_0_0_1_n_n.contr.Idx) :
    (dot_S4000x128_S128x128_S4000x128_1_0_0_1_n_n.rhsIdx i s 0).val = (s ⟨0, by decide⟩).val :=
  dot_S4000x128_S128x128_S4000x128_1_0_0_1_n_n.rhsIdx_val_of_single rfl i s
/-- and the output's column as its column. -/
theorem rhsCol (i : S4000x128.Idx) (s : dot_S4000x128_S128x128_S4000x128_1_0_0_1_n_n.contr.Idx) :
    (dot_S4000x128_S128x128_S4000x128_1_0_0_1_n_n.rhsIdx i s 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- One block's product at an entry: the matrix unit's result on a [4000,128] block of rows and the whole
    [128,128] weight block, into a zero accumulator, is at (p, q) the sum over k of x0 (p, k) * x1 (k, q). -/
theorem blockProduct_apply (x0 : FVec Ideal S4000x128 .bf16) (x1 : FVec Ideal S128x128 .bf16) (p : Fin 4000) (q : Fin 128) :
    k0_pay1 (F := Ideal) x0 x1 (ix2 p q) = ∑ k : Fin 128, x0 (ix2 p k) * x1 (ix2 k q) := by
  unfold k0_pay1
  simp only [shapeCast_self, matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhsRow _ _
    | ⟨1, _⟩ => exact (lhsCol _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhsRow _ _).trans hk
    | ⟨1, _⟩ => exact rhsCol _ _)
  rw [el, er]

/-! ## From blocks to the array -/

theorem zeroOffsets : (![0, 0] : Fin 2 → Nat) = fun _ => 0 := funext fun a => by fin_cases a <;> rfl

/-- The three index maps over the 25 grid points: point t stages rows 4000 t … 4000 t + 3999 of the features,
    the whole weight matrix, and writes rows 4000 t … 4000 t + 3999 of the product. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t, at (y 0, y 1), is the features' array at row 4000 t + y 0, column y 1. -/
theorem featureBlock_apply (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .bf16) y = X V c i := by
  obtain ⟨e00, e01, -, -, -, -⟩ := blockIndices t
  unfold iblk0
  rw [View.read_apply]
  show V c (Pipeline.arrRef spec0 0) _ = V c (Pipeline.arrRef spec0 0) _
  refine congrArg _ ?_
  funext a
  apply Fin.ext
  match a with
  | ⟨0, _⟩ => show win0_0.index t 0 * 4000 + 1 * (y 0).val = (i 0).val; rw [e00, h0]; omega
  | ⟨1, _⟩ => show win0_0.index t 1 * 128 + 1 * (y 1).val = (i 1).val; rw [e01, h1]; omega

/-- The weights' block at every point is the whole weight matrix. -/
theorem weightBlock_apply (c : Dev nD) (t : Fin cfg0.N) (y : S128x128.Idx) :
    (iblk0 V c 1 t : Vec Ideal S128x128 .bf16) y = Wt V c y := by
  obtain ⟨-, -, e10, e11, -, -⟩ := blockIndices t
  unfold iblk0
  rw [View.read_apply]
  show V c (Pipeline.arrRef spec0 1) _ = V c (Pipeline.arrRef spec0 1) _
  refine congrArg _ ?_
  funext a
  apply Fin.ext
  match a with
  | ⟨0, _⟩ => show win0_1.index t 0 * 128 + 1 * (y 0).val = (y 0).val; rw [e10]; omega
  | ⟨1, _⟩ => show win0_1.index t 1 * 128 + 1 * (y 1).val = (y 1).val; rw [e11]; omega

/-- A block product whose operands are rows of x and the whole of w is, entry by entry, the whole product at
    the entry's place in the array. -/
theorem blockProduct_eq (x0 : FVec Ideal S4000x128 .bf16) (x1 : FVec Ideal S128x128 .bf16)
    (x : S100000x128.Idx → EReal) (w : S128x128.Idx → EReal) (j : S4000x128.Idx) (i : S100000x128.Idx)
    (h0 : ∀ k : Fin 128, x0 (ix2 (j 0) k) = x (ix2 (i 0) k))
    (h1 : ∀ k : Fin 128, x1 (ix2 k (j 1)) = w (ix2 k (i 1))) :
    k0_pay1 (F := Ideal) x0 x1 j = rowsTimes x w i :=
  ((congrArg (k0_pay1 (F := Ideal) x0 x1) (eq_ix2 j)).trans (blockProduct_apply x0 x1 (j 0) (j 1))).trans
    (Finset.sum_congr rfl fun k _ => by rw [h0 k, h1 k])

/-- What point t writes back is block t of the whole product of the two arrays as the region finds them. -/
theorem flushed_eq (c : Dev nD) (t : Fin cfg0.N) :
    (dat0 (F := Ideal) V c).flushed 2 t = ((cfg0.win 2).blk t).view.read (Elt Ideal) (rowsTimes (X V c) (Wt V c)) := by
  show (cfg0.win 2).cut (grid0.coords t) ((dat0 V c).after 2 t) = _
  rw [after0_2]
  unfold out0_2
  rw [View.canon_unit_zero zeroOffsets]
  simp only [View.ld_unit_zero (S := S4000x128) zeroOffsets, View.ld_unit_zero (S := S128x128) zeroOffsets]
  obtain ⟨-, -, -, -, e20, e21⟩ := blockIndices t
  funext j
  show k0_pay1 (F := Ideal) (iblk0 V c 0 t) (iblk0 V c 1 t) j = rowsTimes (X V c) (Wt V c) (((cfg0.win 2).blk t).view.emb j)
  have r0 : ((((cfg0.win 2).blk t).view.emb j) 0).val = 4000 * t.val + (j 0).val := by
    show win0_2.index t 0 * 4000 + 1 * (j 0).val = 4000 * t.val + (j 0).val
    rw [e20]; omega
  have r1 : ((((cfg0.win 2).blk t).view.emb j) 1).val = (j 1).val := by
    show win0_2.index t 1 * 128 + 1 * (j 1).val = (j 1).val
    rw [e21]; omega
  refine blockProduct_eq (iblk0 V c 0 t) (iblk0 V c 1 t) (X V c) (Wt V c) j (((cfg0.win 2).blk t).view.emb j) (fun k => ?_) (fun k => ?_)
  · exact featureBlock_apply V c t (ix2 (j 0) k) (ix2 ((((cfg0.win 2).blk t).view.emb j) 0) k) r0 rfl
  · refine (weightBlock_apply V c t (ix2 k (j 1))).trans (congrArg (Wt V c) ?_)
    funext a
    apply Fin.ext
    match a with
    | ⟨0, _⟩ => rfl
    | ⟨1, _⟩ => exact r1.symm

/-- An index of the product array is in point t's block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v32).slice (win0_2.rect t)).set ↔ _
  rw [View.set_slice_whole, Rect.mem_set_unit]
  exact Iff.rfl

/-- Every entry of the product array is in some point's block: row r is written by point r / 4000. -/
theorem covered (i : S100000x128.Idx) :
    ∃ t : Fin cfg0.N, (cfg0.win 2).flush t = true ∧ i ∈ ((cfg0.win 2).blk t).view.set := by
  have hN : cfg0.N = 25 := N_0
  have hi0 : (i 0).val < 100000 := idx2_lt0 i
  have hi1 : (i 1).val < 128 := idx2_lt1 i
  have ht : (i 0).val / 4000 < cfg0.N := by rw [hN]; omega
  obtain ⟨-, -, -, -, e20, e21⟩ := blockIndices ⟨(i 0).val / 4000, ht⟩
  refine ⟨⟨(i 0).val / 4000, ht⟩, flush0_2 _, ?_⟩
  rw [mem_blk]
  intro a
  match a with
  | ⟨0, _⟩ =>
    show win0_2.index ⟨(i 0).val / 4000, ht⟩ (0 : Fin 2) * 4000 ≤ (i 0).val ∧ (i 0).val < win0_2.index ⟨(i 0).val / 4000, ht⟩ (0 : Fin 2) * 4000 + 4000
    rw [e20]; show (i 0).val / 4000 * 4000 ≤ (i 0).val ∧ (i 0).val < (i 0).val / 4000 * 4000 + 4000; omega
  | ⟨1, _⟩ =>
    show win0_2.index ⟨(i 0).val / 4000, ht⟩ (1 : Fin 2) * 128 ≤ (i 1).val ∧ (i 1).val < win0_2.index ⟨(i 0).val / 4000, ht⟩ (1 : Fin 2) * 128 + 128
    rw [e21]; omega

/-- The first region's output array after its run is the whole matrix product of the two arrays it found on
    entry: entry (r, q) is the sum over k of X (r, k) * Wt (k, q). -/
theorem final_h (c : Dev nD) : (dat0 (F := Ideal) V c).arrAt 2 cfg0.N = fun i => ∑ k : Fin 128, X V c (ix2 (i 0) k) * Wt V c (ix2 k (i 1)) :=
  (dat0 (F := Ideal) V c).arrAt_eq_of_cover 2 (rowsTimes (X V c) (Wt V c)) (fun t _ => flushed_eq V c t) covered

end Cert.KernelIdeal.MatmulValue

end
-- ==== Proof.StatsValue.lean ====
/-
  The value of the statistics region: the column sums and the column sums of squares of its input array.

  The region walks the 100000 × 128 input array in 25 row blocks of 4000 rows. It keeps two 1 × 128 accumulators
  that stay in place over the whole walk: at the first point both are reset to zero, at every point the block's
  column sums are added to the first and the column sums of the block's squares to the second, and only after the
  last point are the two accumulators written to the two 1 × 128 result arrays.

  Read over the extended reals — a commutative monoid under addition, so no finiteness is used anywhere here —
  lane `j` of the first accumulator after point `n` is the sum over the blocks `0 … n` of the block's lane-`j`
  entries (by induction on the point: the first point gives `0 + ` the first block's sum, each later point adds its
  block's sum to what the point before left), entry `p` of block `t` is row `4000 t + p` of the array, and the 25
  blocks of 4000 rows are the 100000 rows, each once. So after the last point the accumulators are the column sums of
  the whole array, and the single write-back, whose block is the whole 1 × 128 result, leaves exactly that.

  Everything is stated at the contents `V` the region finds when it is entered, kept a variable.
-/
import proofs.«114614_j66383014527704_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

namespace Cert.KernelIdeal.StatsValue

open Cert.KernelIdeal Cert.KernelIdeal.Gen Idealize.ShloMosaic Idealize.ShloMosaic.ValueIdx

variable {F : FTy → Type} [FloatOps F]

/-- The offsets of a whole-buffer access are all zero. -/
theorem hz : (![0, 0] : Fin 2 → Nat) = fun _ => 0 := funext fun a => by fin_cases a <;> rfl

/-! ## What each control case leaves in the two accumulators, as the body's arithmetic

At a point after the first the body reads the block `x` and the accumulators `xo1`, `xo2` whole and stores, whole,
`xo1 + colsum x` and `xo2 + colsum (x * x)`. At the first point it first stores zeros and reads them back, so the
same two stores start from zero. Each accumulator is covered by its last whole store, whose payload is what it holds
afterwards. -/

/-- A later point, first accumulator: the running contents plus the block's column sums. -/
theorem out_B_1 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S4000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S4000x128) hz,
    View.ld_unit_zero (S := S1x128) hz]

/-- A later point, second accumulator: the running contents plus the column sums of the block's squares. -/
theorem out_B_2 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S4000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S4000x128) hz,
    View.ld_unit_zero (S := S1x128) hz]

/-- The first point, first accumulator: the stored zeros, read back, plus the block's column sums. -/
theorem out_A_1 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S4000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S4000x128) hz]

/-- The first point, second accumulator: the stored zeros, read back, plus the column sums of the block's squares. -/
theorem out_A_2 (c : Dev nD) (i : grid1.Coords) (a1 : Memref sig .tc .vmem S4000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S4000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S4000x128) hz]

/-! ## The arithmetic at one lane, over the extended reals -/

/-- Lane `j` of the reduced vector with row `k` put back is entry `(k, j)` of the block. -/
theorem lift_row (h : S4000x128.Reduces [0] S128) (j : Fin 128) (k : Fin (S4000x128.size 0)) :
    h.lift (ix1 j) k = ix2 (⟨k.val, k.isLt⟩ : Fin 4000) j := by
  funext a; apply Fin.ext
  fin_cases a <;> rfl

/-- The reduction over the rows, viewed as one row of 128 lanes, is at lane `j` the sum of the block's column `j`. -/
theorem colsum_apply (v : FVec Ideal S4000x128 .f32) (j : Fin 128) (h : S4000x128.Reduces [0] S128)
    (hφ : FKind.Formats .f32) (hacc : (0x00000000#32 : BitVec 32) = FKind.add.neutral .f32 hφ)
    (hsc : S128.ShapeCasts S1x128) :
    shapeCast S1x128 (multiReduction (F := Ideal) .add [0] S128 v 0x00000000#32 h hφ hacc) hsc (ix2 (0 : Fin 1) j)
      = ∑ p : Fin 4000, v (ix2 p j) := by
  refine (shapeCast_a_1a_apply _ hsc 0 j).trans ?_
  refine (Ideal.multiReduction_add_single v 0x00000000#32 h hφ hacc (ix1 j)).trans ?_
  exact Finset.sum_congr rfl (fun k _ => congrArg v (lift_row h j k))

/-- The reset value of the first accumulator is zero at every lane. -/
theorem pay1_apply (j : Fin 128) : (k1_pay1 (F := Ideal)) (ix2 (0 : Fin 1) j) = 0 := by
  unfold k1_pay1
  exact Ideal.ofBits_zero_f32

/-- The reset value of the second accumulator is zero at every lane. -/
theorem pay2_apply (j : Fin 128) : (k1_pay2 (F := Ideal)) (ix2 (0 : Fin 1) j) = 0 := by
  unfold k1_pay2
  exact Ideal.ofBits_zero_f32

/-- The first accumulator's update at lane `j`: what it held plus the sum of the block's column `j`. -/
theorem pay4_apply (v3 : Vec Ideal S4000x128 .f32) (v5 : Vec Ideal S1x128 .f32) (j : Fin 128) :
    k1_pay4 v3 v5 (ix2 (0 : Fin 1) j) = v5 (ix2 (0 : Fin 1) j) + ∑ p : Fin 4000, v3 (ix2 p j) := by
  unfold k1_pay4 k1_pay3
  simp only [shapeCast_self]
  refine (addf_apply _ _ _).trans ?_
  exact congrArg (fun z => v5 (ix2 (0 : Fin 1) j) + z) (colsum_apply v3 j _ _ _ _)

/-- The second accumulator's update at lane `j`: what it held plus the sum of the squares of the block's column `j`. -/
theorem pay5_apply (v3 : Vec Ideal S4000x128 .f32) (v11 : Vec Ideal S1x128 .f32) (j : Fin 128) :
    k1_pay5 v3 v11 (ix2 (0 : Fin 1) j) = v11 (ix2 (0 : Fin 1) j) + ∑ p : Fin 4000, v3 (ix2 p j) * v3 (ix2 p j) := by
  unfold k1_pay5 k1_pay3
  simp only [shapeCast_self]
  refine (addf_apply _ _ _).trans ?_
  exact congrArg (fun z => v11 (ix2 (0 : Fin 1) j) + z) (colsum_apply (mulf v3 v3) j _ _ _ _)

/-! ## The region's input array, its row blocks, and the running sums -/

section AtIdeal

variable (V : (c : Dev nD) → (b : Ref sig .tc) → Buf (Elt Ideal) ((c : Thread nD τ).loc b))

/-- The region's one input array. -/
abbrev A (c : Dev nD) : S100000x128.Idx → EReal := V c (Pipeline.arrRef spec1 0)

/-- Row `p` of row block `t` is row `4000 t + p` of the array. -/
def row (t : Fin 25) (p : Fin 4000) : Fin 100000 := ⟨4000 * t.val + p.val, by omega⟩

/-- Block `t` of the input window starts at block row `t`, block column `0`. -/
theorem idx_facts : ∀ t : Fin cfg1.N, win1_0.index t 0 = t.val ∧ win1_0.index t 1 = 0 :=
  (by decide +kernel : ∀ t : Fin grid1.N, win1_0.index t 0 = t.val ∧ win1_0.index t 1 = 0)

/-- Row block `t` of the array, as the kernel's window reads it. -/
abbrev blk (c : Dev nD) (t : Fin cfg1.N) : Vec Ideal S4000x128 .f32 := iblk1 V c 0 t

/-- Entry `(p, j)` of row block `t` is entry `(4000 t + p, j)` of the array. -/
theorem iblk_apply (c : Dev nD) (t : Fin cfg1.N) (ht : t.val < 25) (p : Fin 4000) (j : Fin 128) :
    blk V c t (ix2 p j) = A V c (ix2 (row ⟨t.val, ht⟩ p) j) := by
  have hi := idx_facts t
  unfold blk iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t 0 * 4000 + 1 * p.val = 4000 * t.val + p.val; rw [hi.1]; omega
  | ⟨1, _⟩ => show win1_0.index t 1 * 128 + 1 * j.val = j.val; rw [hi.2]; omega

/-- The sum of lane `j` over row block `t` (zero past the grid). -/
def blkSum (c : Dev nD) (j : Fin 128) (t : ℕ) : EReal :=
  if h : t < 25 then ∑ p : Fin 4000, A V c (ix2 (row ⟨t, h⟩ p) j) else 0

/-- The sum of the squares of lane `j` over row block `t` (zero past the grid). -/
def blkSq (c : Dev nD) (j : Fin 128) (t : ℕ) : EReal :=
  if h : t < 25 then ∑ p : Fin 4000, A V c (ix2 (row ⟨t, h⟩ p) j) * A V c (ix2 (row ⟨t, h⟩ p) j) else 0

/-- The sum of column `j` of row block `t`, in the array's own rows. -/
theorem iblk_sum (c : Dev nD) (t : Fin cfg1.N) (j : Fin 128) :
    ∑ p : Fin 4000, blk V c t (ix2 p j) = blkSum V c j t.val := by
  have ht : t.val < 25 := lt_of_lt_of_eq t.isLt (show cfg1.N = 25 from N_1)
  unfold blkSum
  rw [dif_pos ht]
  exact Finset.sum_congr rfl fun p _ => iblk_apply V c t ht p j

/-- The sum of the squares of column `j` of row block `t`, in the array's own rows. -/
theorem iblk_sumsq (c : Dev nD) (t : Fin cfg1.N) (j : Fin 128) :
    ∑ p : Fin 4000, blk V c t (ix2 p j) * blk V c t (ix2 p j)
      = blkSq V c j t.val := by
  have ht : t.val < 25 := lt_of_lt_of_eq t.isLt (show cfg1.N = 25 from N_1)
  unfold blkSq
  rw [dif_pos ht]
  exact Finset.sum_congr rfl fun p _ => by rw [iblk_apply V c t ht p j]

/-- The first point: both accumulators are reset, then take the first block's sums. -/
theorem point_A (c : Dev nD) (t : Fin cfg1.N) (h0 : t.val % 25 = 0) (j : Fin 128) :
    (outsAt1 V c t.val t.isLt).1 (ix2 (0 : Fin 1) j) = blkSum V c j t.val
    ∧ (outsAt1 V c t.val t.isLt).2 (ix2 (0 : Fin 1) j) = blkSq V c j t.val := by
  rw [outsAt1_A V c t h0]
  dsimp only
  constructor
  · refine (congrFun (out_A_1 (F := Ideal) c (grid1.coords t) (ms1_0 t) (hs1_0 t) (ms1_1 t) (hs1_1 t) (ms1_2 t) (hs1_2 t)
      ((hcond1_0 t).mpr h0) (iblk1 V c 0 t)) (ix2 (0 : Fin 1) j)).trans ?_
    refine (pay4_apply (iblk1 V c 0 t) (k1_pay1 (F := Ideal)) j).trans ?_
    rw [pay1_apply, zero_add]
    exact iblk_sum V c t j
  · refine (congrFun (out_A_2 (F := Ideal) c (grid1.coords t) (ms1_0 t) (hs1_0 t) (ms1_1 t) (hs1_1 t) (ms1_2 t) (hs1_2 t)
      ((hcond1_0 t).mpr h0) (iblk1 V c 0 t)) (ix2 (0 : Fin 1) j)).trans ?_
    refine (pay5_apply (iblk1 V c 0 t) (k1_pay2 (F := Ideal)) j).trans ?_
    rw [pay2_apply, zero_add]
    exact iblk_sumsq V c t j

/-- Every later point adds its block's sums to what the point before left. -/
theorem point_B (c : Dev nD) (t : Fin cfg1.N) (h0 : ¬t.val % 25 = 0) (j : Fin 128) :
    (outsAt1 V c t.val t.isLt).1 (ix2 (0 : Fin 1) j)
      = (outsAt1 V c (t.val - 1) (Nat.lt_of_le_of_lt (Nat.sub_le _ _) t.isLt)).1 (ix2 (0 : Fin 1) j) + blkSum V c j t.val
    ∧ (outsAt1 V c t.val t.isLt).2 (ix2 (0 : Fin 1) j)
      = (outsAt1 V c (t.val - 1) (Nat.lt_of_le_of_lt (Nat.sub_le _ _) t.isLt)).2 (ix2 (0 : Fin 1) j) + blkSq V c j t.val := by
  rw [outsAt1_B V c t h0]
  dsimp only
  constructor
  · refine (congrFun (out_B_1 (F := Ideal) c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2) (ix2 (0 : Fin 1) j)).trans ?_
    refine (pay4_apply (iblk1 V c 0 t) (outsAt1 V c (t.val - 1) (Nat.lt_of_le_of_lt (Nat.sub_le _ _) t.isLt)).1 j).trans ?_
    rw [iblk_sum V c t j]
  · refine (congrFun (out_B_2 (F := Ideal) c (grid1.coords t) (ms1_0 t) (hs1_0 t) (ms1_1 t) (hs1_1 t) (ms1_2 t) (hs1_2 t)
      (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2) (ix2 (0 : Fin 1) j)).trans ?_
    refine (pay5_apply (iblk1 V c 0 t) (outsAt1 V c (t.val - 1) (Nat.lt_of_le_of_lt (Nat.sub_le _ _) t.isLt)).2 j).trans ?_
    rw [iblk_sumsq V c t j]

/-- After point `n` the two accumulators hold the sums over the row blocks `0 … n`. -/
theorem outsAt_eq (c : Dev nD) (j : Fin 128) : ∀ (n : ℕ) (h : n < cfg1.N),
    (outsAt1 V c n h).1 (ix2 (0 : Fin 1) j) = ∑ t ∈ Finset.range (n + 1), blkSum V c j t
    ∧ (outsAt1 V c n h).2 (ix2 (0 : Fin 1) j) = ∑ t ∈ Finset.range (n + 1), blkSq V c j t
  | 0, h => by
    have e := point_A V c ⟨0, h⟩ rfl j
    rw [Finset.sum_range_one, Finset.sum_range_one]
    exact e
  | n + 1, h => by
    have hN : cfg1.N = 25 := N_1
    have hB : ¬(⟨n + 1, h⟩ : Fin cfg1.N).val % 25 = 0 := by dsimp only; omega
    have e := point_B V c ⟨n + 1, h⟩ hB j
    have ih := outsAt_eq c j n (Nat.lt_of_succ_lt h)
    rw [Finset.sum_range_succ _ (n + 1), Finset.sum_range_succ _ (n + 1)]
    exact ⟨e.1.trans (congrArg (fun z => z + blkSum V c j (n + 1)) ih.1),
      e.2.trans (congrArg (fun z => z + blkSq V c j (n + 1)) ih.2)⟩

end AtIdeal

/-! ## From the 25 block sums to the sum over all rows, and the write-back -/

section Final

variable (V : (c : Dev nD) → (b : Ref sig .tc) → Buf (Elt Ideal) ((c : Thread nD τ).loc b))

/-- The 25 row blocks of 4000 rows are the 100000 rows, each once. -/
theorem sum_rows {M : Type*} [AddCommMonoid M] (f : Fin 100000 → M) :
    ∑ t : Fin 25, ∑ p : Fin 4000, f (row t p) = ∑ r : Fin 100000, f r := by
  rw [← Fintype.sum_prod_type']
  exact Fintype.sum_equiv (finProdFinEquiv (m := 25) (n := 4000)) _ f
    (fun x => congrArg f (Fin.ext (by rw [finProdFinEquiv_apply_val]; show 4000 * x.1.val + x.2.val = _; omega)))

/-- The block sums of lane `j` over all 25 blocks add up to the sum of column `j` of the array. -/
theorem total_sum (c : Dev nD) (j : Fin 128) :
    ∑ t ∈ Finset.range 25, blkSum V c j t = ∑ r : Fin 100000, A V c (ix2 r j) := by
  rw [← Fin.sum_univ_eq_sum_range (fun t => blkSum V c j t) 25, ← sum_rows (fun r => A V c (ix2 r j))]
  exact Finset.sum_congr rfl fun t _ => dif_pos t.isLt

/-- The block sums of squares of lane `j` over all 25 blocks add up to the sum of squares of column `j`. -/
theorem total_sumsq (c : Dev nD) (j : Fin 128) :
    ∑ t ∈ Finset.range 25, blkSq V c j t = ∑ r : Fin 100000, A V c (ix2 r j) * A V c (ix2 r j) := by
  rw [← Fin.sum_univ_eq_sum_range (fun t => blkSq V c j t) 25, ← sum_rows (fun r => A V c (ix2 r j) * A V c (ix2 r j))]
  exact Finset.sum_congr rfl fun t _ => dif_pos t.isLt

/-- The column sums of the whole array, as contents of the first [1,128] output. -/
def colSum (c : Dev nD) : S1x128.Idx → EReal := fun i => ∑ r : Fin 100000, A V c (ix2 r (i 1))
/-- The column sums of squares of the whole array, as contents of the second [1,128] output. -/
def colSq (c : Dev nD) : S1x128.Idx → EReal := fun i => ∑ r : Fin 100000, A V c (ix2 r (i 1)) * A V c (ix2 r (i 1))

/-- Both result windows sit at block (0, 0) at every point. -/
theorem out_facts : ∀ t : Fin cfg1.N, (win1_1.index t 0 = 0 ∧ win1_1.index t 1 = 0) ∧ (win1_2.index t 0 = 0 ∧ win1_2.index t 1 = 0) :=
  (by decide +kernel : ∀ t : Fin grid1.N, (win1_1.index t 0 = 0 ∧ win1_1.index t 1 = 0) ∧ (win1_2.index t 0 = 0 ∧ win1_2.index t 1 = 0))

/-- After the last point the first accumulator holds the column sums of the array. -/
theorem acc_last_1 (c : Dev nD) (t : Fin cfg1.N) (h24 : t.val = 24) :
    (outsAt1 V c t.val t.isLt).1 = colSum V c := by
  funext i
  obtain ⟨u, j, rfl⟩ : ∃ (u : Fin 1) (j : Fin 128), i = ix2 u j := ⟨i 0, i 1, eq_ix2 i⟩
  obtain rfl : u = 0 := Subsingleton.elim _ _
  refine ((outsAt_eq V c j t.val t.isLt).1).trans ?_
  rw [h24]
  exact total_sum V c j

/-- After the last point the second accumulator holds the column sums of squares of the array. -/
theorem acc_last_2 (c : Dev nD) (t : Fin cfg1.N) (h24 : t.val = 24) :
    (outsAt1 V c t.val t.isLt).2 = colSq V c := by
  funext i
  obtain ⟨u, j, rfl⟩ : ∃ (u : Fin 1) (j : Fin 128), i = ix2 u j := ⟨i 0, i 1, eq_ix2 i⟩
  obtain rfl : u = 0 := Subsingleton.elim _ _
  refine ((outsAt_eq V c j t.val t.isLt).2).trans ?_
  rw [h24]
  exact total_sumsq V c j

/-- The one write-back of the first result, at the last point, writes the column sums: its block, at zero offsets
    and of the array's own sizes, is the whole array. -/
theorem flushed_eq_1 (c : Dev nD) (t : Fin cfg1.N) (hf : (cfg1.win 1).flush t = true) :
    (dat1 V c).flushed 1 t = ((cfg1.win 1).blk t).view.read (Elt Ideal) (colSum V c) := by
  have hN : cfg1.N = 25 := N_1
  have h24 : t.val = 24 := by have := (flush1_1 t).mp hf; have := t.isLt; omega
  show (cfg1.win 1).cut (grid1.coords t) ((dat1 V c).after 1 t) = _
  rw [after1_1, acc_last_1 V c t h24]
  have hz' : (fun a => win1_1.index t a * main_v49_0.ty.shape.size a) = fun _ => 0 :=
    funext fun a => by
      have ho := (out_facts t).1
      match a with
      | ⟨0, _⟩ => show win1_1.index t 0 * 1 = 0; rw [ho.1]
      | ⟨1, _⟩ => show win1_1.index t 1 * 128 = 0; rw [ho.2]
  exact (Memref.read_access_unit_zero (Elt Ideal) main_v49_0 hz' (fun a => by rw [congrFun hz' a]; simp) (colSum V c)).symm

end Final

/-! ## The two result arrays after the region -/

section Result

variable (V : (c : Dev nD) → (b : Ref sig .tc) → Buf (Elt Ideal) ((c : Thread nD τ).loc b))

/-- The one write-back of the second result, at the last point, writes the column sums of squares. -/
theorem flushed_eq_2 (c : Dev nD) (t : Fin cfg1.N) (hf : (cfg1.win 2).flush t = true) :
    (dat1 V c).flushed 2 t = ((cfg1.win 2).blk t).view.read (Elt Ideal) (colSq V c) := by
  have hN : cfg1.N = 25 := N_1
  have h24 : t.val = 24 := by have := (flush1_2 t).mp hf; have := t.isLt; omega
  show (cfg1.win 2).cut (grid1.coords t) ((dat1 V c).after 2 t) = _
  rw [after1_2, acc_last_2 V c t h24]
  have hz' : (fun a => win1_2.index t a * main_v49_1.ty.shape.size a) = fun _ => 0 :=
    funext fun a => by
      have ho := (out_facts t).2
      match a with
      | ⟨0, _⟩ => show win1_2.index t 0 * 1 = 0; rw [ho.1]
      | ⟨1, _⟩ => show win1_2.index t 1 * 128 = 0; rw [ho.2]
  exact (Memref.read_access_unit_zero (Elt Ideal) main_v49_1 hz' (fun a => by rw [congrFun hz' a]; simp) (colSq V c)).symm

/-- The last grid point. -/
def tLast : Fin cfg1.N := ⟨24, by rw [show cfg1.N = 25 from N_1]; decide⟩

/-- The first output array ends holding the column sums of the input array: the one write-back, at the last point,
    writes the whole [1,128] array. -/
theorem final_sum (c : Dev nD) :
    (dat1 (F := Ideal) V c).arrAt 1 cfg1.N = fun i : S1x128.Idx => ∑ r : Fin 100000, A V c (ix2 r (i 1)) :=
  (dat1 V c).arrAt_eq_of_cover 1 (colSum V c) (flushed_eq_1 V c) fun i =>
    ⟨tLast, (flush1_1 tLast).mpr rfl, by
      show i ∈ ((View.whole main_v49_0).slice (win1_1.rect tLast)).set
      rw [View.set_slice_whole, Rect.mem_set_unit]
      intro a
      have h0 : (i 0 : Nat) < 1 := (i 0).isLt
      have h1 : (i 1 : Nat) < 128 := (i 1).isLt
      have ho := (out_facts tLast).1
      match a with
      | ⟨0, _⟩ => show win1_1.index tLast 0 * 1 ≤ (i 0 : Nat) ∧ (i 0 : Nat) < win1_1.index tLast 0 * 1 + 1
                  rw [ho.1]; omega
      | ⟨1, _⟩ => show win1_1.index tLast 1 * 128 ≤ (i 1 : Nat) ∧ (i 1 : Nat) < win1_1.index tLast 1 * 128 + 128
                  rw [ho.2]; omega⟩

/-- The second output array ends holding the column sums of squares of the input array. -/
theorem final_sumsq (c : Dev nD) :
    (dat1 (F := Ideal) V c).arrAt 2 cfg1.N
      = fun i : S1x128.Idx => ∑ r : Fin 100000, A V c (ix2 r (i 1)) * A V c (ix2 r (i 1)) :=
  (dat1 V c).arrAt_eq_of_cover 2 (colSq V c) (flushed_eq_2 V c) fun i =>
    ⟨tLast, (flush1_2 tLast).mpr rfl, by
      show i ∈ ((View.whole main_v49_1).slice (win1_2.rect tLast)).set
      rw [View.set_slice_whole, Rect.mem_set_unit]
      intro a
      have h0 : (i 0 : Nat) < 1 := (i 0).isLt
      have h1 : (i 1 : Nat) < 128 := (i 1).isLt
      have ho := (out_facts tLast).2
      match a with
      | ⟨0, _⟩ => show win1_2.index tLast 0 * 1 ≤ (i 0 : Nat) ∧ (i 0 : Nat) < win1_2.index tLast 0 * 1 + 1
                  rw [ho.1]; omega
      | ⟨1, _⟩ => show win1_2.index tLast 1 * 128 ≤ (i 1 : Nat) ∧ (i 1 : Nat) < win1_2.index tLast 1 * 128 + 128
                  rw [ho.2]; omega⟩

end Result

end Cert.KernelIdeal.StatsValue

end
-- ==== Proof.NormValue.lean ====
/-
  The value of the third pallas region (normalise and rectify), read off the generated frame at the ideal instance.
  The region visits the 25 row blocks of 4000 rows of its input array `a0` [100000, 128]; at every block it holds the
  whole one-row arrays `a1`, `a2` [1, 128] (scale and shift) and stores, at row `p` and lane `q` of the block,
  `max (a0 (4000 t + p, q) * a1 (0, q) + a2 (0, q), 0)`. Every block is written back, the blocks tile the rows, so the
  output array ends, index by index, at `max (a0 i * a1 (0, i₁) + a2 (0, i₁), 0)`.
-/
import proofs.«114614_j66383014527704_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The normalised and rectified entry: `max (a0 i * a1 (0, i₁) + a2 (0, i₁), 0)`. -/
def normRelu (a0 : S100000x128.Idx → EReal) (a1 a2 : S1x128.Idx → EReal) : S100000x128.Idx → EReal :=
  fun i => max (a0 i * a1 (ix2 (0 : Fin 1) (i 1)) + a2 (ix2 (0 : Fin 1) (i 1))) (Ideal.ofBits .f32 0x00000000#32)

/-- The body's stored value at row `p`, lane `q` of a block: the two identity casts drop, the one-row operands are
    broadcast down the rows, and the three pointwise operations read at the index. -/
theorem stored_apply (x0 : FVec Ideal S4000x128 .f32) (x1 x2 : FVec Ideal S1x128 .f32) (p : Fin 4000) (q : Fin 128) :
    k2_pay1 x0 x1 x2 (ix2 p q)
      = max (x0 (ix2 p q) * x1 (ix2 (0 : Fin 1) q) + x2 (ix2 (0 : Fin 1) q)) (Ideal.ofBits .f32 0x00000000#32) := by
  unfold k2_pay1
  simp only [shapeCast_self]
  rw [maximumf_apply, addf_apply, mulf_apply, broadcastTo_1b_ab_apply, broadcastTo_1b_ab_apply, broadcast_apply]
  rfl

/-- The printed index maps over the grid: the input and output row blocks move together, block `t` at point `t`; the
    one-row operands stay at block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input row block's entry at (p, q) is the array's at the output block's place: both at row 4000 t + p, lane q. -/
theorem read_rows (c : Dev nD) (t : Fin cfg2.N) (p : Fin 4000) (q : Fin 128) :
    iblk2 V c 0 t (ix2 p q) = V c (Pipeline.arrRef spec2 0) (((cfg2.win 3).blk t).view.emb (ix2 p q)) := by
  obtain ⟨e0, e1, -, -, -, -, e6, e7⟩ := index_maps t
  show V c (Pipeline.arrRef spec2 0) (((cfg2.win 0).blk t).view.emb (ix2 p q)) = _
  refine congrArg _ (funext fun a => Fin.ext ?_)
  match a with
  | ⟨0, _⟩ => show win2_0.index t (0 : Fin 2) * 4000 + 1 * p.val = win2_3.index t (0 : Fin 2) * 4000 + 1 * p.val; omega
  | ⟨1, _⟩ => show win2_0.index t (1 : Fin 2) * 128 + 1 * q.val = win2_3.index t (1 : Fin 2) * 128 + 1 * q.val; omega

/-- The scale row's block is the whole one-row array. -/
theorem read_scale (c : Dev nD) (t : Fin cfg2.N) (p : Fin 4000) (q : Fin 128) :
    iblk2 V c 1 t (ix2 (0 : Fin 1) q)
      = V c (Pipeline.arrRef spec2 1) (ix2 (0 : Fin 1) ((((cfg2.win 3).blk t).view.emb (ix2 p q)) 1)) := by
  obtain ⟨-, -, e2, e3, -, -, e6, e7⟩ := index_maps t
  show V c (Pipeline.arrRef spec2 1) (((cfg2.win 1).blk t).view.emb (ix2 (0 : Fin 1) q)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * q.val = win2_3.index t (1 : Fin 2) * 128 + 1 * q.val; omega

/-- The shift row's block is the whole one-row array. -/
theorem read_shift (c : Dev nD) (t : Fin cfg2.N) (p : Fin 4000) (q : Fin 128) :
    iblk2 V c 2 t (ix2 (0 : Fin 1) q)
      = V c (Pipeline.arrRef spec2 2) (ix2 (0 : Fin 1) ((((cfg2.win 3).blk t).view.emb (ix2 p q)) 1)) := by
  obtain ⟨-, -, -, -, e4, e5, e6, e7⟩ := index_maps t
  show V c (Pipeline.arrRef spec2 2) (((cfg2.win 2).blk t).view.emb (ix2 (0 : Fin 1) q)) = _
  refine congrArg _ (funext fun a => Fin.ext ?_)
  match a with
  | ⟨0, _⟩ => show win2_2.index t (0 : Fin 2) * 1 + 1 * 0 = 0; omega
  | ⟨1, _⟩ => show win2_2.index t (1 : Fin 2) * 128 + 1 * q.val = win2_3.index t (1 : Fin 2) * 128 + 1 * q.val; omega

/-- What point `t` writes back is block `t` of `normRelu` of the three arrays as the region finds them. -/
theorem flushed_eq (c : Dev nD) (t : Fin cfg2.N) :
    (dat2 V c).flushed 3 t = ((cfg2.win 3).blk t).view.read (Elt Ideal)
      (normRelu (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero offsets_zero]
  simp only [View.ld_unit_zero (S := S4000x128) offsets_zero, View.ld_unit_zero (S := S1x128) offsets_zero]
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (ix2 p q)
    = normRelu (V c (Pipeline.arrRef spec2 0)) (V c (Pipeline.arrRef spec2 1)) (V c (Pipeline.arrRef spec2 2))
        (((cfg2.win 3).blk t).view.emb (ix2 p q))
  refine (stored_apply (iblk2 V c 0 t) (iblk2 V c 1 t) (iblk2 V c 2 t) p q).trans ?_
  rw [read_rows V c t p q, read_scale V c t p q, read_shift V c t p q]
  rfl

/-- An index of the output array lies in point `t`'s block iff each coordinate is in the block's range on its axis. -/
theorem mem_block (t : Fin cfg2.N) (i : S100000x128.Idx) :
    i ∈ ((cfg2.win 3).blk t).view.set ↔ ∀ a : Fin 2, win2_3.index t a * S4000x128.size a ≤ (i a).val ∧ (i a).val < win2_3.index t a * S4000x128.size a + S4000x128.size a := by
  show i ∈ ((View.whole main_v64).slice (win2_3.rect t)).set ↔ _
  rw [View.set_slice_whole, Rect.mem_set_unit]
  exact Iff.rfl

/-- Row `r` lies in the block of point `r / 4000`: the 25 row blocks tile the 100000 rows. -/
theorem covered (i : S100000x128.Idx) : ∃ t : Fin cfg2.N, (cfg2.win 3).flush t = true ∧ i ∈ ((cfg2.win 3).blk t).view.set := by
  have hN : cfg2.N = 25 := N_2
  have hi0 : (i 0).val < 100000 := (i 0).isLt
  have hi1 : (i 1).val < 128 := (i 1).isLt
  let t : Fin cfg2.N := ⟨(i 0).val / 4000, by rw [hN]; omega⟩
  obtain ⟨-, -, -, -, -, -, e6, e7⟩ := index_maps t
  have ht : t.val = (i 0).val / 4000 := rfl
  refine ⟨t, flush2_3 t, ?_⟩
  rw [mem_block]
  intro a
  match a with
  | ⟨0, _⟩ => show win2_3.index t (0 : Fin 2) * 4000 ≤ (i 0).val ∧ (i 0).val < win2_3.index t (0 : Fin 2) * 4000 + 4000; omega
  | ⟨1, _⟩ => show win2_3.index t (1 : Fin 2) * 128 ≤ (i 1).val ∧ (i 1).val < win2_3.index t (1 : Fin 2) * 128 + 128; omega

/-- The region's output array after the run: `normRelu` of its three input arrays, index by index. -/
theorem final_y (c : Dev nD) : (dat2 V c).arrAt 3 cfg2.N
    = normRelu (V c (Pipeline.arrRef spec2 0)) (V c (Pipeline.arrRef spec2 1)) (V c (Pipeline.arrRef spec2 2)) :=
  (dat2 V c).arrAt_eq_of_cover 3 _ (fun t _ => flushed_eq V c t) covered

end Cert.KernelIdeal.NormValue

end
-- ==== Proof.KValue.lean ====
/-
  The idealized kernel's result array, assembled from the three regions' values and the host operations between them.
  Region 0 leaves the matrix product of `x` and `W` (a change of float format is the identity on extended reals), so
  region 1 finds the reference's own `out` array; it leaves that array's column sums and column sums of squares;
  the host turns them into a scale row and a shift row; region 2 leaves `max (out · scale + shift, 0)`.
-/
import proofs.«114614_j66383014527704_1_alg».proof.Proof.KRun
import proofs.«114614_j66383014527704_1_alg».proof.Proof.HostReads
import proofs.«114614_j66383014527704_1_alg».proof.Proof.MatmulValue
import proofs.«114614_j66383014527704_1_alg».proof.Proof.StatsValue
import proofs.«114614_j66383014527704_1_alg».proof.Proof.NormValue

set_option maxRecDepth 16384

noncomputable section

namespace Cert.KernelIdeal.KValue

open Cert.KernelIdeal Cert.KernelIdeal.Gen
open Idealize.ShloMosaic Idealize.ShloMosaic.TcCoe Idealize.SL.Sem Idealize.ShloMosaic.ValueIdx

variable (m : (ℓ : Loc nD τ sig) → Buf (Elt Idealize.ShloMosaic.Ideal) ℓ) (ρ : Dev nD → PrngReg)

/-- The pre-normalisation array: the reference's stage of the kernel's own arguments. -/
def outArr (c : Dev nD) : FVec Idealize.ShloMosaic.Ideal S100000x128 .f32 :=
  Cert.ReferenceIdeal.Read.val_main_v46 (F := Idealize.ShloMosaic.Ideal) (m ((c : Thread nD τ).loc main_arg0)) (m ((c : Thread nD τ).loc main_arg1)) (m ((c : Thread nD τ).loc main_arg2)) (m ((c : Thread nD τ).loc main_arg3))

/-- Column sums and column sums of squares of a [100000, 128] array, as [1, 128] rows. -/
def colSum (O : FVec Idealize.ShloMosaic.Ideal S100000x128 .f32) : FVec Idealize.ShloMosaic.Ideal S1x128 .f32 := fun i => ∑ r : Fin 100000, O (ix2 r (i 1))
def colSq (O : FVec Idealize.ShloMosaic.Ideal S100000x128 .f32) : FVec Idealize.ShloMosaic.Ideal S1x128 .f32 := fun i => ∑ r : Fin 100000, O (ix2 r (i 1)) * O (ix2 r (i 1))

/-- Region 0 leaves the reference's matrix product: block by block the same sums of products, of the same entries. -/
theorem h_val (c : Dev nD) : @Eq (FVec Idealize.ShloMosaic.Ideal S100000x128 .f32) (W4 m ρ c (Proc.devRef .tc main_v32))
    (Cert.ReferenceIdeal.Read.val_main_v30 (F := Idealize.ShloMosaic.Ideal) (m ((c : Thread nD τ).loc main_arg0)) (m ((c : Thread nD τ).loc main_arg2))) := by
  refine ((W4_arr m ρ c 2).trans (MatmulValue.final_h (V3 m ρ) c)).trans ?_
  funext i
  rw [Cert.ReferenceIdeal.Read.val_main_v30_apply]
  refine Finset.sum_congr rfl fun k _ => ?_
  have hx : MatmulValue.X (V3 m ρ) c = (m ((c : Thread nD τ).loc main_arg0)) := HostReads.x_in m ρ c
  have hw : MatmulValue.Wt (V3 m ρ) c = (m ((c : Thread nD τ).loc main_arg2)) := HostReads.w_in m ρ c
  rw [hx, hw]
  refine congrArg₂ (· * ·) (congrArg _ ?_) (congrArg _ ?_)
  · exact funext fun a => Fin.ext (by match a with | ⟨0, _⟩ => rfl | ⟨1, _⟩ => rfl)
  · exact funext fun a => Fin.ext (by match a with | ⟨0, _⟩ => rfl | ⟨1, _⟩ => rfl)

/-- Region 1 finds the reference's `out`. -/
theorem out5 (c : Dev nD) : @Eq (FVec Idealize.ShloMosaic.Ideal S100000x128 .f32) (V5 m ρ c main_v48) (outArr m c) := by
  rw [HostReads.out_in m ρ c, h_val m ρ c]
  exact (Cert.ReferenceIdeal.RefChain.out_eq _ _ _ _).symm

/-- Region 1 leaves its column sums -/
theorem sum6 (c : Dev nD) : @Eq (FVec Idealize.ShloMosaic.Ideal S1x128 .f32) (W6 m ρ c (Proc.devRef .tc main_v49_0)) (colSum (outArr m c)) := by
  refine ((W6_arr m ρ c 1).trans (StatsValue.final_sum (V5 m ρ) c)).trans ?_
  funext i
  refine Finset.sum_congr rfl fun r _ => ?_
  have hA : StatsValue.A (V5 m ρ) c = outArr m c := out5 m ρ c
  rw [hA]

/-- and its column sums of squares. -/
theorem sumsq6 (c : Dev nD) : @Eq (FVec Idealize.ShloMosaic.Ideal S1x128 .f32) (W6 m ρ c (Proc.devRef .tc main_v49_1)) (colSq (outArr m c)) := by
  refine ((W6_arr m ρ c 2).trans (StatsValue.final_sumsq (V5 m ρ) c)).trans ?_
  funext i
  refine Finset.sum_congr rfl fun r _ => ?_
  have hA : StatsValue.A (V5 m ρ) c = outArr m c := out5 m ρ c
  rw [hA]

/-- The run's result array: `out` normalised by the scale and shift rows of its own column statistics, rectified. -/
theorem result_eq (c : Dev nD) : @Eq (FVec Idealize.ShloMosaic.Ideal S100000x128 .f32) (W8 m ρ c (Proc.devRef .tc main_v64))
    (NormValue.normRelu (outArr m c)
      (HostReads.scaleRow (colSum (outArr m c)) (colSq (outArr m c)) (m ((c : Thread nD τ).loc main_arg4)))
      (HostReads.shiftRow (colSum (outArr m c)) (colSq (outArr m c)) (m ((c : Thread nD τ).loc main_arg4)) (m ((c : Thread nD τ).loc main_arg5)))) := by
  refine ((W8_arr m ρ c 3).trans (NormValue.final_y (V7 m ρ) c)).trans ?_
  show NormValue.normRelu (V7 m ρ c main_v48) (V7 m ρ c main_v60) (V7 m ρ c main_v63) = _
  rw [HostReads.out7 m ρ c, out5 m ρ c, HostReads.scale7 m ρ c, HostReads.shift7 m ρ c, sum6 m ρ c, sumsq6 m ρ c]

end Cert.KernelIdeal.KValue

end
-- ==== Proof.FinitePre.lean ====
import proofs.«114614_j66383014527704_1_alg».proof.Proof.Gen.Pre_finite_inputs
import Idealize.ShloMosaic.Lib.ReduceAll
import Idealize.ShloMosaic.Lib.ValueIdx
import Idealize.ShloMosaic.PureOps.Ideal.Laws

/-! From the precondition to "every float input entry is a real number".

The precondition is a conjunction of five tests, one per float argument a: all entries x of a satisfy |x| < +∞, where
|x| is max x (-x) at the extended reals and +∞ is what the f32 pattern 0x7F800000 denotes. Each test is a reduction by
"and" over every axis, from the constant 1, of the array of one-bit comparison results; the five results are joined by
"and". The whole is stated to be 1.

An "and" of one-bit words is 1 exactly when both are, so each of the five reductions is 1. A reduction by "and" that is
1 met only 1s, so every comparison is 1, that is max x (-x) < ⊤ for every entry x. An extended real is ⊥, ⊤ or a real;
at ⊥ and at ⊤ the maximum is ⊤, so x is a real. -/

noncomputable section

namespace Cert.FinitePre

open Cert.Pre_finite_inputs Idealize.ShloMosaic

/-- The shape of rank 0 has one index. -/
instance : Subsingleton S_.Idx := ⟨fun a b => funext fun d => d.elim0⟩

/-- The f32 pattern 0x7F800000 (sign 0, exponent all ones, fraction 0) denotes +∞. -/
theorem inf_bits : Idealize.ShloMosaic.Ideal.ofBits .f32 0x7F800000#32 = (⊤ : EReal) := by
  simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ came out 1, then x is a real number. -/
theorem real_of_cmp (x : EReal)
    (h : Idealize.ShloMosaic.Ideal.cmp .olt (max x (-x)) (Idealize.ShloMosaic.Ideal.ofBits .f32 0x7F800000#32) = 1#1) :
    ∃ r : ℝ, x = (r : EReal) := by
  rw [inf_bits] at h
  unfold Idealize.ShloMosaic.Ideal.cmp at h
  by_cases hlt : max x (-x) < ⊤
  · exact real_of_abs_lt_top x hlt
  · simp [hlt] at h

/-- One argument, of any shape s: if the reduction by "and" over all axes of the comparisons |a i| < +∞ is 1, then
    every entry of a is a real number. The array stays a variable: the reduction is never evaluated. -/
theorem reals_of_all {s : Shape} {axes : List (Fin s.rank)} (a : FVec Idealize.ShloMosaic.Ideal s .f32)
    (hb : S_.BroadcastsInDim s (![] : Fin 0 → Fin s.rank)) (hr : s.ReducesTo axes S_) (h0 : 0 < S_.numel)
    (e : Host.reduce IntOp.andi
          (cmpf .olt (Host.absf a) (broadcastInDim s ![] hb (constant (F := Idealize.ShloMosaic.Ideal) S_ .f32 0x7F800000#32)))
          (constantI S_ 1 1#1) hr h0 ValueIdx.ix0 = 1#1) :
    ∀ i, ∃ r : ℝ, a i = (r : EReal) := by
  intro i
  have hi := Host.reduce_andi_all _ _ hr h0 _ e i
  exact real_of_cmp (a i) hi

/-- An "and" of two arrays of one-bit words is 1 at an index exactly when both arrays are 1 there. -/
theorem andi_at {s : Shape} (x y : IVec s 1) (i : s.Idx) : andi x y i = 1#1 ↔ x i = 1#1 ∧ y i = 1#1 :=
  IntOp.andi_eq_one

/-- The precondition gives: every entry of each of the five float arguments is a real number. -/
theorem reals_of_pre (a0 : FVec Idealize.ShloMosaic.Ideal S100000x128 .f32) (a1 : IVec S2x1600000 32)
    (a2 : FVec Idealize.ShloMosaic.Ideal S128x128 .f32) (a3 a4 a5 : FVec Idealize.ShloMosaic.Ideal S128 .f32)
    (h : Cert.Pre_finite_inputs.fn (F := Idealize.ShloMosaic.Ideal) a0 a1 a2 a3 a4 a5 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h1 := congrFun h ValueIdx.ix0
  dsimp only [Cert.Pre_finite_inputs.fn, Cert.Pre_finite_inputs.fn_part1] at h1
  obtain ⟨h1234, e5⟩ := (andi_at _ _ _).1 h1
  obtain ⟨h123, e4⟩ := (andi_at _ _ _).1 h1234
  obtain ⟨h12, e3⟩ := (andi_at _ _ _).1 h123
  obtain ⟨e0, e2⟩ := (andi_at _ _ _).1 h12
  exact ⟨reals_of_all a0 _ _ _ e0, reals_of_all a2 _ _ _ e2, reals_of_all a3 _ _ _ e3, reals_of_all a4 _ _ _ e4,
    reals_of_all a5 _ _ _ e5⟩

end Cert.FinitePre
-- ==== Proof.RefBn.lean ====
/-
  The reference's result at an index, in terms of the pre-normalisation array `out` (the stage the kernel shares) and
  the rows of that index's column: with `μ = (0 + Σₖ out (k, q)) / n`, the entry at `(r, q)` is
  `max (((out (r, q) − μ) · rsqrt ((0 + Σₖ (out (k, q) − μ)²) / n + ε)) · γ q + β q, 0)`.
-/
import proofs.«114614_j66383014527704_1_alg».proof.Proof.RefRead

noncomputable section

namespace Cert.ReferenceIdeal.RefBn

open Cert.ReferenceIdeal Cert.ReferenceIdeal.Read Idealize.ShloMosaic Idealize.ShloMosaic.ValueIdx

/-- A column as an index of the per-column arrays. -/
abbrev colIdx (q : Fin 128) : S128.Idx := ix1 q
/-- Row `k`, column `q` as an index of the [100000, 128] arrays. -/
abbrev rowCol (k : Fin 100000) (q : Fin 128) : S100000x128.Idx := ix2 k q

/-- Row `k` of column `j`. -/
theorem col_row (j : S128.Idx) (k : Fin 100000) : idx_main_v47 j k = rowCol k (j 0) :=
  funext fun a => Fin.ext (by match a with | ⟨0, _⟩ => rfl | ⟨1, _⟩ => rfl)
theorem col_row' (j : S128.Idx) (k : Fin 100000) : idx_main_v54 j k = rowCol k (j 0) :=
  funext fun a => Fin.ext (by match a with | ⟨0, _⟩ => rfl | ⟨1, _⟩ => rfl)
/-- The two broadcasts of a per-column value read it back at the entry's column. -/
theorem col_of51 (i : S100000x128.Idx) : idx_main_v50 (idx_main_v51 i) = colIdx (i 1) :=
  funext fun a => Fin.ext (by match a with | ⟨0, _⟩ => rfl)
theorem col_of58 (i : S100000x128.Idx) : idx_main_v57 (idx_main_v58 i) = colIdx (i 1) :=
  funext fun a => Fin.ext (by match a with | ⟨0, _⟩ => rfl)
theorem col_of64 (i : S100000x128.Idx) : idx_main_v63 (idx_main_v64 i) = colIdx (i 1) :=
  funext fun a => Fin.ext (by match a with | ⟨0, _⟩ => rfl)
theorem col_of67 (i : S100000x128.Idx) : idx_main_v66 (idx_main_v67 i) = colIdx (i 1) :=
  funext fun a => Fin.ext (by match a with | ⟨0, _⟩ => rfl)
theorem col_of70 (i : S100000x128.Idx) : idx_main_v69 (idx_main_v70 i) = colIdx (i 1) :=
  funext fun a => Fin.ext (by match a with | ⟨0, _⟩ => rfl)

/-- The column mean: the initial zero plus the column's sum, divided by the row count. -/
theorem mean_at (x0 : (⟨S100000x128, .f32⟩ : BufTy).Contents (Elt Idealize.ShloMosaic.Ideal)) (x1 : (⟨S2x1600000, .i32⟩ : BufTy).Contents (Elt Idealize.ShloMosaic.Ideal))
    (x2 : (⟨S128x128, .f32⟩ : BufTy).Contents (Elt Idealize.ShloMosaic.Ideal)) (x3 : (⟨S128, .f32⟩ : BufTy).Contents (Elt Idealize.ShloMosaic.Ideal)) (j : S128.Idx) :
    val_main_v49 (F := Idealize.ShloMosaic.Ideal) x0 x1 x2 x3 j = Ideal.div (Ideal.ofBits .f32 0x00000000#32 + ∑ k : Fin 100000, val_main_v46 (F := Idealize.ShloMosaic.Ideal) x0 x1 x2 x3 (rowCol k (j 0)))
      (Ideal.ofBits .f32 0x47C35000#32) := by
  rw [val_main_v49_apply, val_main_v47_apply, val_main_v48_apply, val_main_cst_10_apply]
  simp only [col_row]
  rfl

/-- One squared deviation, at row `k` of column `j`. -/
theorem dev_sq (x0 : (⟨S100000x128, .f32⟩ : BufTy).Contents (Elt Idealize.ShloMosaic.Ideal)) (x1 : (⟨S2x1600000, .i32⟩ : BufTy).Contents (Elt Idealize.ShloMosaic.Ideal))
    (x2 : (⟨S128x128, .f32⟩ : BufTy).Contents (Elt Idealize.ShloMosaic.Ideal)) (x3 : (⟨S128, .f32⟩ : BufTy).Contents (Elt Idealize.ShloMosaic.Ideal)) (j : S128.Idx) (k : Fin 100000) :
    val_main_v53 (F := Idealize.ShloMosaic.Ideal) x0 x1 x2 x3 (idx_main_v54 j k)
      = (val_main_v46 (F := Idealize.ShloMosaic.Ideal) x0 x1 x2 x3 (rowCol k (j 0)) - val_main_v49 (F := Idealize.ShloMosaic.Ideal) x0 x1 x2 x3 j) * (val_main_v46 (F := Idealize.ShloMosaic.Ideal) x0 x1 x2 x3 (rowCol k (j 0)) - val_main_v49 (F := Idealize.ShloMosaic.Ideal) x0 x1 x2 x3 j) := by
  rw [val_main_v53_apply, val_main_v52_apply, val_main_v51_apply, val_main_v50_apply, col_of51, col_row']
  have hj : colIdx ((rowCol k (j 0)) 1) = j := funext fun a => Fin.ext (by match a with | ⟨0, _⟩ => rfl)
  rw [hj]
  rfl

/-- The column variance: the initial zero plus the sum of the squared deviations, divided by the row count. -/
theorem var_at (x0 : (⟨S100000x128, .f32⟩ : BufTy).Contents (Elt Idealize.ShloMosaic.Ideal)) (x1 : (⟨S2x1600000, .i32⟩ : BufTy).Contents (Elt Idealize.ShloMosaic.Ideal))
    (x2 : (⟨S128x128, .f32⟩ : BufTy).Contents (Elt Idealize.ShloMosaic.Ideal)) (x3 : (⟨S128, .f32⟩ : BufTy).Contents (Elt Idealize.ShloMosaic.Ideal)) (j : S128.Idx) :
    val_main_v56 (F := Idealize.ShloMosaic.Ideal) x0 x1 x2 x3 j
      = Ideal.div (Ideal.ofBits .f32 0x00000000#32
          + ∑ k : Fin 100000, (val_main_v46 (F := Idealize.ShloMosaic.Ideal) x0 x1 x2 x3 (rowCol k (j 0)) - val_main_v49 (F := Idealize.ShloMosaic.Ideal) x0 x1 x2 x3 j) * (val_main_v46 (F := Idealize.ShloMosaic.Ideal) x0 x1 x2 x3 (rowCol k (j 0)) - val_main_v49 (F := Idealize.ShloMosaic.Ideal) x0 x1 x2 x3 j))
        (Ideal.ofBits .f32 0x47C35000#32) := by
  rw [val_main_v56_apply, val_main_v54_apply, val_main_v55_apply, val_main_cst_12_apply]
  simp only [dev_sq]
  rfl

/-- The reference's entry, from the column's mean and variance. -/
theorem entry_at (x0 : (⟨S100000x128, .f32⟩ : BufTy).Contents (Elt Idealize.ShloMosaic.Ideal)) (x1 : (⟨S2x1600000, .i32⟩ : BufTy).Contents (Elt Idealize.ShloMosaic.Ideal))
    (x2 : (⟨S128x128, .f32⟩ : BufTy).Contents (Elt Idealize.ShloMosaic.Ideal)) (x3 : (⟨S128, .f32⟩ : BufTy).Contents (Elt Idealize.ShloMosaic.Ideal)) (x4 x5 : (⟨S128, .f32⟩ : BufTy).Contents (Elt Idealize.ShloMosaic.Ideal)) (i : S100000x128.Idx) :
    val_main_v73 (F := Idealize.ShloMosaic.Ideal) x0 x1 x2 x3 x4 x5 i
      = max (((val_main_v46 (F := Idealize.ShloMosaic.Ideal) x0 x1 x2 x3 i - val_main_v49 (F := Idealize.ShloMosaic.Ideal) x0 x1 x2 x3 (colIdx (i 1)))
            * Ideal.rsqrt (val_main_v56 (F := Idealize.ShloMosaic.Ideal) x0 x1 x2 x3 (colIdx (i 1)) + Ideal.ofBits .f32 0x3727C5AC#32))
          * x4 (colIdx (i 1)) + x5 (colIdx (i 1))) (Ideal.ofBits .f32 0x00000000#32) := by
  rw [val_main_v73_apply, val_main_v71_apply, val_main_v68_apply, val_main_v65_apply, val_main_v59_apply, val_main_v58_apply,
    val_main_v57_apply, col_of58, val_main_v64_apply, val_main_v63_apply, col_of64, val_main_v62_apply, val_main_v61_apply,
    val_main_v60_apply, val_main_cst_13_apply, val_main_v67_apply, val_main_v66_apply, col_of67, val_main_v70_apply,
    val_main_v69_apply, col_of70, val_main_v72_apply, val_main_cst_14_apply]
  rfl

end Cert.ReferenceIdeal.RefBn

end
-- ==== Proof.BnAlgebra.lean ====
/-
  Pure algebra for a training-mode batch normalisation followed by ReLU, at extended-real
  ("ideal") floats.  Two arrangements of the same normalisation are compared:

    * variance as  E[x²] − mean²,  output  x·scale + shift  with
      scale = γ·rsqrt(var+ε),  shift = β − mean·scale;
    * variance as  E[(x − mean)²],  output  (x − mean)·rsqrt(var+ε)·γ + β.

  Over the extended reals the two need not agree (∞ − ∞ is a junk value), but on FINITE entries
  every intermediate value is a real number, the two variances are the same real (a non-negative
  one, so var + ε > 0 and the reciprocal square root is the real one), and the two outputs are
  equal by ring arithmetic.  This module states finiteness as a predicate closed under the
  operations involved, evaluates the three float literals used, and proves the identity.
-/
import Idealize.ShloMosaic.PureOps.Ideal

noncomputable section

namespace Cert.BnAlgebra

open Idealize.ShloMosaic
open scoped BigOperators

/-! ### The literals -/

/-- The pattern of the batch size denotes the real 100000: exponent 143 − 127 = 16, significand
    (2^23 + 4411392) · 2^(16 − 23) = 12800000 / 128. -/
theorem ofBits_n : Ideal.ofBits .f32 0x47C35000#32 = ((100000 : ℝ) : EReal) := by
  simp [Ideal.ofBits, Ideal.ieee, -EReal.coe_mul]; norm_num

/-- The pattern of ε (the single-precision float nearest 10⁻⁵) denotes a positive real: exponent
    110 − 127 = −17, significand 2^23 + 2606508 = 10995116, so the value is 10995116 / 2^40. -/
theorem ofBits_eps_val : Ideal.ofBits .f32 0x3727C5AC#32 = ((10995116 / 2 ^ 40 : ℝ) : EReal) := by
  simp [Ideal.ofBits, Ideal.ieee, -EReal.coe_mul]; norm_num

theorem ofBits_eps : ∃ e : ℝ, 0 < e ∧ Ideal.ofBits .f32 0x3727C5AC#32 = (e : EReal) :=
  ⟨10995116 / 2 ^ 40, by positivity, ofBits_eps_val⟩

/-- The all-zero pattern denotes 0. -/
theorem ofBits_zero : Ideal.ofBits .f32 0x00000000#32 = 0 := by
  simp [Ideal.ofBits, Ideal.ieee]

/-! ### Finiteness -/

/-- An extended real is finite when it is (the image of) a real number. -/
def Fin' (x : EReal) : Prop := ∃ r : ℝ, x = (r : EReal)

theorem fin_coe (r : ℝ) : Fin' (r : EReal) := ⟨r, rfl⟩

theorem fin_zero : Fin' 0 := ⟨0, EReal.coe_zero.symm⟩

theorem fin_add {x y : EReal} (hx : Fin' x) (hy : Fin' y) : Fin' (x + y) := by
  obtain ⟨a, rfl⟩ := hx; obtain ⟨b, rfl⟩ := hy
  exact ⟨a + b, (EReal.coe_add a b).symm⟩

theorem fin_mul {x y : EReal} (hx : Fin' x) (hy : Fin' y) : Fin' (x * y) := by
  obtain ⟨a, rfl⟩ := hx; obtain ⟨b, rfl⟩ := hy
  exact ⟨a * b, (EReal.coe_mul a b).symm⟩

theorem fin_sub {x y : EReal} (hx : Fin' x) (hy : Fin' y) : Fin' (x - y) := by
  obtain ⟨a, rfl⟩ := hx; obtain ⟨b, rfl⟩ := hy
  exact ⟨a - b, (EReal.coe_sub a b).symm⟩

theorem fin_neg {x : EReal} (hx : Fin' x) : Fin' (-x) := by
  obtain ⟨a, rfl⟩ := hx
  exact ⟨-a, (EReal.coe_neg a).symm⟩

/-- A finite sum of real numbers, read in the extended reals, is the real sum. -/
theorem coe_sum {α : Type*} (s : Finset α) (f : α → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fin_sum {α : Type*} (s : Finset α) (f : α → EReal) (h : ∀ i ∈ s, Fin' (f i)) :
    Fin' (∑ i ∈ s, f i) := by
  classical
  induction s using Finset.induction_on with
  | empty => simpa using fin_zero
  | insert a s ha ih =>
    rw [Finset.sum_insert ha]
    exact fin_add (h a (Finset.mem_insert_self a s))
      (ih fun i hi => h i (Finset.mem_insert_of_mem hi))

/-- Division by a nonzero real keeps a finite value finite. -/
theorem fin_div {x : EReal} (hx : Fin' x) {N : ℝ} (hN : N ≠ 0) : Fin' (Ideal.div x (N : EReal)) := by
  rw [Ideal.div_coe hN]
  exact fin_mul hx (fin_coe _)

/-- The reciprocal square root of a positive real r is the real (√r)⁻¹. -/
theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

theorem fin_rsqrt {r : ℝ} (hr : 0 < r) : Fin' (Ideal.rsqrt (r : EReal)) :=
  ⟨_, rsqrt_pos hr⟩

theorem fin_max {x y : EReal} (hx : Fin' x) (hy : Fin' y) : Fin' (max x y) := by
  rcases max_choice x y with h | h <;> rw [h] <;> assumption

/-! ### The two variances are one real -/

section Real
variable {ι : Type*} [Fintype ι]

/-- E[(x − μ)²] = E[x²] − μ² with μ = E[x], the means being sums times 1/N, N the number of
    entries: expanding the square, ∑ (xᵢ − μ)² = ∑ xᵢ² − 2μ·∑ xᵢ + N·μ², and ∑ xᵢ = N·μ. -/
theorem var_real (f : ι → ℝ) (N : ℝ) (hN : (Fintype.card ι : ℝ) = N) (hN0 : 0 < N) :
    (∑ i, (f i - (∑ j, f j) * (1 / N)) * (f i - (∑ j, f j) * (1 / N))) * (1 / N)
      = (∑ i, f i * f i) * (1 / N) - ((∑ j, f j) * (1 / N)) * ((∑ j, f j) * (1 / N)) := by
  set μ : ℝ := (∑ j, f j) * (1 / N) with hμ
  have hexp : ∀ i, (f i - μ) * (f i - μ) = f i * f i - 2 * μ * f i + μ * μ := fun i => by ring
  have hsum : ∑ i, (f i - μ) * (f i - μ) = (∑ i, f i * f i) - 2 * μ * (∑ i, f i) + N * (μ * μ) := by
    simp only [hexp]
    rw [Finset.sum_add_distrib, Finset.sum_sub_distrib, ← Finset.mul_sum, Finset.sum_const,
      Finset.card_univ, nsmul_eq_mul, hN]
  have hS : (∑ j, f j) = N * μ := by
    rw [hμ]; field_simp
  rw [hsum, hS]
  field_simp
  ring

/-- The variance (in its centred form) is non-negative: a sum of squares over a positive count. -/
theorem var_nonneg (f : ι → ℝ) (c : ℝ) (N : ℝ) (hN0 : 0 < N) :
    0 ≤ (∑ i, (f i - c) * (f i - c)) * (1 / N) :=
  mul_nonneg (Finset.sum_nonneg fun i _ => mul_self_nonneg _) (by positivity)

end Real

/-! ### The identity -/

/-- On real operands the two output arrangements agree: x·(γ·s) + (β − μ·(γ·s)) = (x − μ)·s·γ + β. -/
theorem out_real (xr g b μ s : ℝ) :
    max ((xr : EReal) * ((g : EReal) * (s : EReal)) + ((b : EReal) - (μ : EReal) * ((g : EReal) * (s : EReal)))) 0
      = max ((((xr : EReal) - (μ : EReal)) * (s : EReal)) * (g : EReal) + (b : EReal)) 0 := by
  simp only [← EReal.coe_mul, ← EReal.coe_add, ← EReal.coe_sub]
  congr 2
  ring

theorem bn_eq {ι : Type*} [Fintype ι] (x : ι → EReal) (hx : ∀ i, Fin' (x i)) (g b : EReal) (hg : Fin' g)
    (hb : Fin' b) (N e : ℝ) (hN : (Fintype.card ι : ℝ) = N) (hN0 : 0 < N) (he : 0 < e) (r : ι) :
    max (x r * (g * Ideal.rsqrt ((Ideal.div (∑ i, x i * x i) (N : EReal) - Ideal.div (∑ i, x i) (N : EReal) * Ideal.div (∑ i, x i) (N : EReal)) + (e : EReal)))
           + (b - Ideal.div (∑ i, x i) (N : EReal) * (g * Ideal.rsqrt ((Ideal.div (∑ i, x i * x i) (N : EReal) - Ideal.div (∑ i, x i) (N : EReal) * Ideal.div (∑ i, x i) (N : EReal)) + (e : EReal))))) 0
      = max (((x r - Ideal.div (0 + ∑ i, x i) (N : EReal)) * Ideal.rsqrt (Ideal.div (0 + ∑ i, (x i - Ideal.div (0 + ∑ i, x i) (N : EReal)) * (x i - Ideal.div (0 + ∑ i, x i) (N : EReal))) (N : EReal) + (e : EReal))) * g + b) 0 := by
  -- real witnesses for every operand
  choose f hf using hx
  obtain ⟨gr, rfl⟩ := hg
  obtain ⟨br, rfl⟩ := hb
  have hxf : x = fun i => (f i : EReal) := funext hf
  subst hxf
  have hNne : N ≠ 0 := hN0.ne'
  -- the mean, a real
  have hmean : Ideal.div (∑ i, (f i : EReal)) (N : EReal) = (((∑ j, f j) * (1 / N) : ℝ) : EReal) := by
    rw [Ideal.div_coe hNne, coe_sum, ← EReal.coe_mul]
  -- the mean of squares, a real
  have hsq : Ideal.div (∑ i, (f i : EReal) * (f i : EReal)) (N : EReal)
      = (((∑ i, f i * f i) * (1 / N) : ℝ) : EReal) := by
    rw [Ideal.div_coe hNne]
    simp only [← EReal.coe_mul]
    rw [coe_sum, ← EReal.coe_mul]
  -- the centred mean of squares, a real
  have hcen : Ideal.div (∑ i, ((f i : EReal) - (((∑ j, f j) * (1 / N) : ℝ) : EReal))
        * ((f i : EReal) - (((∑ j, f j) * (1 / N) : ℝ) : EReal))) (N : EReal)
      = (((∑ i, (f i - (∑ j, f j) * (1 / N)) * (f i - (∑ j, f j) * (1 / N))) * (1 / N) : ℝ) : EReal) := by
    rw [Ideal.div_coe hNne]
    simp only [← EReal.coe_sub, ← EReal.coe_mul]
    rw [coe_sum, ← EReal.coe_mul]
  -- the two variances are one real, and it is non-negative
  have hvar := var_real f N hN hN0
  have hnn := var_nonneg f ((∑ j, f j) * (1 / N)) N hN0
  have hpos : 0 < (∑ i, (f i - (∑ j, f j) * (1 / N)) * (f i - (∑ j, f j) * (1 / N))) * (1 / N) + e := by
    linarith
  simp only [zero_add]
  rw [hmean, hsq, hcen, ← EReal.coe_mul, ← EReal.coe_sub, ← EReal.coe_add, ← EReal.coe_add, ← hvar,
    rsqrt_pos hpos]
  exact out_real _ _ _ _ _

end Cert.BnAlgebra

end
-- ==== Proof.OutFinite.lean ====
import proofs.«114614_j66383014527704_1_alg».proof.Proof.RefRead

/-! Every entry of the pre-normalisation array "out" (stage 46 of the reference: the scatter-added messages plus the
bias) is a real number as soon as the entries of x, W and b are, whatever the edge indices are.

The argument follows the stages. A scatter-add at the extended reals is the operand's entry plus a finite sum of update
entries, so it keeps "every entry is real". A gather reads one entry of its operand, so it keeps it too. The matrix
product is a finite sum of products of reals. The normalisation factor dinv is 0, or rsqrt of a degree that
exceeds 0, and rsqrt of such an extended real is real: rsqrt ⊤ = 0 and rsqrt r = (√r)⁻¹ for a real r > 0.
Products, sums and broadcasts of reals are reals. -/

noncomputable section

namespace Cert.OutFinite

open Cert.ReferenceIdeal Cert.ReferenceIdeal.Read Idealize.ShloMosaic

/-- The extended real x is (the image of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem isReal_sum {ι : Type} (s : Finset ι) (f : ι → EReal) (hf : ∀ j ∈ s, IsReal (f j)) : IsReal (∑ j ∈ s, f j) := by
  classical
  induction s using Finset.induction_on with
  | empty => rw [Finset.sum_empty]; exact isReal_zero
  | insert a s ha ih =>
    rw [Finset.sum_insert ha]
    exact isReal_add (hf a (Finset.mem_insert_self a s)) (ih fun j hj => hf j (Finset.mem_insert_of_mem hj))

/-- The float zero pattern denotes the real 0. -/
theorem isReal_ofBits_zero : IsReal (Ideal.ofBits .f32 0x00000000#32) := by
  rw [Ideal.ofBits_zero_f32]; exact isReal_zero

/-- A scatter-add of real updates into a real operand has real entries, whatever the indices are. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact isReal_add (hx i) (isReal_sum _ _ fun j _ => hu j)

/-- A gather of an operand with real entries has real entries: each of its entries is an entry of the operand. -/
theorem gather_real {s si t : Shape} {w : Nat} (d : GatherDims s si t) (x : s.Idx → EReal) (idx : IVec si w)
    (hx : ∀ i, IsReal (x i)) (j : t.Idx) : IsReal (Host.gather d x idx j) :=
  hx _

/-- rsqrt of an extended real that exceeds 0 is a real. -/
theorem rsqrt_real_of_pos {x : EReal} (h : 0 < x) : IsReal (Ideal.rsqrt x) := by
  induction x using EReal.rec with
  | bot => exact absurd h (by simp)
  | top => rw [Ideal.rsqrt_top]; exact isReal_zero
  | coe r =>
    have hr : 0 < r := by exact_mod_cast h
    rw [Ideal.rsqrt_coe, if_neg (not_lt.mpr hr.le), if_neg hr.ne']
    exact isReal_coe _

/-- The comparison "a > b" answering the bit 1 means b < a. -/
theorem lt_of_cmp_ogt {a b : EReal} (h : Ideal.cmp .ogt a b = 1#1) : b < a := by
  by_contra hn
  have h0 : Ideal.cmp .ogt a b = 0#1 := by
    show BitVec.ofBool (decide (b < a)) = 0#1
    rw [decide_eq_false hn]; rfl
  rw [h0] at h
  exact absurd h (by decide)

/-- For any extended real d: "d > 0 ? rsqrt d : 0" is a real. Where the comparison holds d exceeds 0, so rsqrt d is real;
    elsewhere the value is the constant 0. -/
theorem select_rsqrt_real (dg : Ideal .f32) :
    IsReal (Scalar.select (FloatOps.cmpf .ogt dg (FloatOps.ofBits (F := Ideal) .f32 0x00000000#32))
      (FloatOps.hostUnary .rsqrt dg) (FloatOps.ofBits (F := Ideal) .f32 0x00000000#32)) := by
  rw [Ideal.ofBits_def, Ideal.ofBits_zero_f32, Ideal.cmpf_def, Ideal.hostUnary_rsqrt_def]
  by_cases hc : Ideal.cmp .ogt dg 0 = 1#1
  · rw [hc, ValueIdx.select_one]
    exact rsqrt_real_of_pos (lt_of_cmp_ogt hc)
  · rw [ValueIdx.eq_zero_of_ne_one hc, ValueIdx.select_zero]
    exact isReal_zero

/-- The normalisation factor dinv (stage 14) is real at every node, whatever the degree there is. -/
theorem v14_real (x1 : (⟨S2x1600000, .i32⟩ : BufTy).Contents (Elt Ideal)) (i : S100000.Idx) :
    IsReal (val_main_v14 (F := Ideal) x1 i) := by
  rw [val_main_v14_apply, val_main_v12_apply, val_main_v13_apply, val_main_v11_apply, val_main_cst_1_apply,
    val_main_call0_v1_apply, val_main_call0_v0_apply, val_main_cst_2_apply]
  generalize val_main_v10 (F := Ideal) x1 i = dg
  exact select_rsqrt_real dg

/-- Stage 29, the edge weight dinv[row] * dinv[col], is real. -/
theorem v29_real (x1 : (⟨S2x1600000, .i32⟩ : BufTy).Contents (Elt Ideal)) (i : S1700000.Idx) :
    IsReal (val_main_v29 (F := Ideal) x1 i) := by
  rw [val_main_v29_apply]
  exact isReal_mul (gather_real _ _ _ (v14_real x1) i) (gather_real _ _ _ (v14_real x1) i)

/-- Stage 30, h = x W, is real: a finite sum of products of reals. -/
theorem v30_real (x0 : (⟨S100000x128, .f32⟩ : BufTy).Contents (Elt Ideal)) (x2 : (⟨S128x128, .f32⟩ : BufTy).Contents (Elt Ideal))
    (h0 : ∀ i, IsReal (x0 i)) (h2 : ∀ i, IsReal (x2 i)) (i : S100000x128.Idx) :
    IsReal (val_main_v30 (F := Ideal) x0 x2 i) := by
  rw [val_main_v30_apply]
  exact isReal_sum _ _ fun k _ => isReal_mul (h0 _) (h2 _)

/-- Stage 40, the messages h[row] * weight, is real. -/
theorem v40_real (x0 : (⟨S100000x128, .f32⟩ : BufTy).Contents (Elt Ideal)) (x1 : (⟨S2x1600000, .i32⟩ : BufTy).Contents (Elt Ideal))
    (x2 : (⟨S128x128, .f32⟩ : BufTy).Contents (Elt Ideal))
    (h0 : ∀ i, IsReal (x0 i)) (h2 : ∀ i, IsReal (x2 i)) (i : S1700000x128.Idx) :
    IsReal (val_main_v40 (F := Ideal) x0 x1 x2 i) := by
  rw [val_main_v40_apply, val_main_v39_apply, val_main_v38_apply]
  exact isReal_mul (gather_real _ _ _ (v30_real x0 x2 h0 h2) i) (v29_real x1 _)

/-- Stage 43, the aggregated messages, is real. -/
theorem v43_real (x0 : (⟨S100000x128, .f32⟩ : BufTy).Contents (Elt Ideal)) (x1 : (⟨S2x1600000, .i32⟩ : BufTy).Contents (Elt Ideal))
    (x2 : (⟨S128x128, .f32⟩ : BufTy).Contents (Elt Ideal))
    (h0 : ∀ i, IsReal (x0 i)) (h2 : ∀ i, IsReal (x2 i)) (i : S100000x128.Idx) :
    IsReal (val_main_v43 (F := Ideal) x0 x1 x2 i) := by
  unfold val_main_v43
  refine scatterAdd_real _ _ _ _ (fun j => ?_) (v40_real x0 x1 x2 h0 h2) i
  rw [val_main_v41_apply, val_main_cst_8_apply]
  exact isReal_ofBits_zero

/-- Every entry of out = agg + b is a real number when the entries of x, W and b are. -/
theorem out_finite (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, Cert.ReferenceIdeal.Read.val_main_v46 (F := Ideal) x0 x1 x2 x3 i = (r : EReal) := by
  intro i
  rw [val_main_v46_apply, val_main_v45_apply, val_main_v44_apply]
  exact isReal_add (v43_real x0 x1 x2 h0 h2 i) (h3 _)

end Cert.OutFinite

end
-- ==== Proof.Bridge.lean ====
/-
  The bridge: at every index the idealized kernel's result and the reference's are the same extended real.
  Both normalise the same array `out` column by column. With `S = Σᵣ out (r, q)` and `T = Σᵣ out (r, q)²` the
  kernel computes `mean = S / n`, `scale = γ · rsqrt (T / n − mean² + ε)`, `shift = β − mean · scale` and stores
  `max (out · scale + shift, 0)`; the reference computes `μ = (0 + S) / n`, the variance as the mean of the squared
  deviations `(out − μ)²`, and `max ((out − μ) · rsqrt (var + ε) · γ + β, 0)`. The two variances and the two affine
  forms agree for real entries (they do not at ±∞: distributivity is used), and `out` is real wherever the float
  inputs are.
-/
import proofs.«114614_j66383014527704_1_alg».proof.Proof.KValue
import proofs.«114614_j66383014527704_1_alg».proof.Proof.RefBn
import proofs.«114614_j66383014527704_1_alg».proof.Proof.BnAlgebra
import proofs.«114614_j66383014527704_1_alg».proof.Proof.OutFinite
import Idealize.ShloMosaic.Lib.Pipeline.Value

set_option maxRecDepth 16384

noncomputable section

namespace Cert.Bridge

open Cert.KernelIdeal Cert.KernelIdeal.Gen
open Idealize.ShloMosaic Idealize.ShloMosaic.TcCoe Idealize.SL.Sem Idealize.ShloMosaic.ValueIdx

/-- A [128] array broadcast to one row, read at lane `q`. -/
theorem lane_bcast (g : FVec Idealize.ShloMosaic.Ideal S128 .f32) (q : Fin 128) :
    broadcastInDim S1x128 ![1] bcast_S128_S1x128_1 g (ix2 (0 : Fin 1) q) = g (ix1 q) :=
  broadcastInDim_apply _ bcast_S128_S1x128_1 g (ix2 (0 : Fin 1) q) (ix1 q) (fun a => match a with
    | ⟨0, _⟩ => by show q.val = if (128 : Nat) = 1 then 0 else q.val; rw [if_neg (by decide)])

/-- A scalar constant broadcast to one row, read at lane `q`. -/
theorem splat_bcast (w : BitVec 32) (q : Fin 128) :
    broadcastInDim S1x128 ![] bcast_S_S1x128 (constant (F := Idealize.ShloMosaic.Ideal) S_ .f32 w) (ix2 (0 : Fin 1) q) = Ideal.ofBits .f32 w :=
  broadcastInDim_apply _ bcast_S_S1x128 (constant (F := Idealize.ShloMosaic.Ideal) S_ .f32 w) (ix2 (0 : Fin 1) q) (fun a => a.elim0) (fun a => a.elim0)

/-- The scale row at lane `q`. -/
theorem scale_at (s1 s2 : FVec Idealize.ShloMosaic.Ideal S1x128 .f32) (g : FVec Idealize.ShloMosaic.Ideal S128 .f32) (q : Fin 128) :
    HostReads.scaleRow s1 s2 g (ix2 (0 : Fin 1) q)
      = g (ix1 q) * Ideal.rsqrt ((Ideal.div (s2 (ix2 (0 : Fin 1) q)) (Ideal.ofBits .f32 0x47C35000#32)
          - Ideal.div (s1 (ix2 (0 : Fin 1) q)) (Ideal.ofBits .f32 0x47C35000#32) * Ideal.div (s1 (ix2 (0 : Fin 1) q)) (Ideal.ofBits .f32 0x47C35000#32))
          + Ideal.ofBits .f32 0x3727C5AC#32) := by
  have e : HostReads.scaleRow s1 s2 g (ix2 (0 : Fin 1) q)
      = broadcastInDim S1x128 ![1] bcast_S128_S1x128_1 g (ix2 (0 : Fin 1) q)
        * Ideal.rsqrt ((Ideal.div (s2 (ix2 (0 : Fin 1) q)) (broadcastInDim S1x128 ![] bcast_S_S1x128 (constant (F := Idealize.ShloMosaic.Ideal) S_ .f32 0x47C35000#32) (ix2 (0 : Fin 1) q))
          - Ideal.div (s1 (ix2 (0 : Fin 1) q)) (broadcastInDim S1x128 ![] bcast_S_S1x128 (constant (F := Idealize.ShloMosaic.Ideal) S_ .f32 0x47C35000#32) (ix2 (0 : Fin 1) q))
            * Ideal.div (s1 (ix2 (0 : Fin 1) q)) (broadcastInDim S1x128 ![] bcast_S_S1x128 (constant (F := Idealize.ShloMosaic.Ideal) S_ .f32 0x47C35000#32) (ix2 (0 : Fin 1) q)))
          + broadcastInDim S1x128 ![] bcast_S_S1x128 (constant (F := Idealize.ShloMosaic.Ideal) S_ .f32 0x3727C5AC#32) (ix2 (0 : Fin 1) q)) := rfl
  rw [e, lane_bcast, splat_bcast, splat_bcast]

/-- The shift row at lane `q`. -/
theorem shift_at (s1 s2 : FVec Idealize.ShloMosaic.Ideal S1x128 .f32) (g b : FVec Idealize.ShloMosaic.Ideal S128 .f32) (q : Fin 128) :
    HostReads.shiftRow s1 s2 g b (ix2 (0 : Fin 1) q)
      = b (ix1 q) - Ideal.div (s1 (ix2 (0 : Fin 1) q)) (Ideal.ofBits .f32 0x47C35000#32) * HostReads.scaleRow s1 s2 g (ix2 (0 : Fin 1) q) := by
  have e : HostReads.shiftRow s1 s2 g b (ix2 (0 : Fin 1) q)
      = broadcastInDim S1x128 ![1] bcast_S128_S1x128_1 b (ix2 (0 : Fin 1) q)
        - Ideal.div (s1 (ix2 (0 : Fin 1) q)) (broadcastInDim S1x128 ![] bcast_S_S1x128 (constant (F := Idealize.ShloMosaic.Ideal) S_ .f32 0x47C35000#32) (ix2 (0 : Fin 1) q))
          * HostReads.scaleRow s1 s2 g (ix2 (0 : Fin 1) q) := rfl
  rw [e, lane_bcast, splat_bcast]

variable (m : (ℓ : Loc nD τ sig) → Buf (Elt Idealize.ShloMosaic.Ideal) ℓ)

/-- At every index, for real-valued float inputs: the kernel's normalised and rectified entry is the reference's. -/
theorem entry_eq (c : Dev nD)
    (h0 : ∀ i, ∃ r : ℝ, (m ((c : Thread nD τ).loc main_arg0)) i = (r : EReal)) (h2 : ∀ i, ∃ r : ℝ, (m ((c : Thread nD τ).loc main_arg2)) i = (r : EReal))
    (h3 : ∀ i, ∃ r : ℝ, (m ((c : Thread nD τ).loc main_arg3)) i = (r : EReal)) (h4 : ∀ i, ∃ r : ℝ, (m ((c : Thread nD τ).loc main_arg4)) i = (r : EReal))
    (h5 : ∀ i, ∃ r : ℝ, (m ((c : Thread nD τ).loc main_arg5)) i = (r : EReal)) (i : S100000x128.Idx) :
    NormValue.normRelu (KValue.outArr m c)
        (HostReads.scaleRow (KValue.colSum (KValue.outArr m c)) (KValue.colSq (KValue.outArr m c)) (m ((c : Thread nD τ).loc main_arg4)))
        (HostReads.shiftRow (KValue.colSum (KValue.outArr m c)) (KValue.colSq (KValue.outArr m c)) (m ((c : Thread nD τ).loc main_arg4)) (m ((c : Thread nD τ).loc main_arg5))) i
      = Cert.ReferenceIdeal.Read.val_main_v73 (F := Idealize.ShloMosaic.Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  obtain ⟨r, q, rfl⟩ : ∃ (r : Fin 100000) (q : Fin 128), i = ix2 r q := ⟨i 0, i 1, eq_ix2 i⟩
  rw [Cert.ReferenceIdeal.RefBn.entry_at, Cert.ReferenceIdeal.RefBn.var_at, Cert.ReferenceIdeal.RefBn.mean_at]
  have hk : NormValue.normRelu (KValue.outArr m c)
        (HostReads.scaleRow (KValue.colSum (KValue.outArr m c)) (KValue.colSq (KValue.outArr m c)) (m ((c : Thread nD τ).loc main_arg4)))
        (HostReads.shiftRow (KValue.colSum (KValue.outArr m c)) (KValue.colSq (KValue.outArr m c)) (m ((c : Thread nD τ).loc main_arg4)) (m ((c : Thread nD τ).loc main_arg5))) (ix2 r q)
      = max ((KValue.outArr m c) (ix2 r q) * HostReads.scaleRow (KValue.colSum (KValue.outArr m c)) (KValue.colSq (KValue.outArr m c)) (m ((c : Thread nD τ).loc main_arg4)) (ix2 (0 : Fin 1) q)
          + HostReads.shiftRow (KValue.colSum (KValue.outArr m c)) (KValue.colSq (KValue.outArr m c)) (m ((c : Thread nD τ).loc main_arg4)) (m ((c : Thread nD τ).loc main_arg5)) (ix2 (0 : Fin 1) q))
        (Ideal.ofBits .f32 0x00000000#32) := rfl
  rw [hk, shift_at, scale_at]
  rw [Cert.BnAlgebra.ofBits_n, Cert.BnAlgebra.ofBits_zero, Cert.BnAlgebra.ofBits_eps_val]
  exact Cert.BnAlgebra.bn_eq (fun k : Fin 100000 => (KValue.outArr m c) (ix2 k q))
    (fun k => Cert.OutFinite.out_finite (m ((c : Thread nD τ).loc main_arg0)) (m ((c : Thread nD τ).loc main_arg1)) (m ((c : Thread nD τ).loc main_arg2)) (m ((c : Thread nD τ).loc main_arg3)) h0 h2 h3 (ix2 k q))
    ((m ((c : Thread nD τ).loc main_arg4)) (ix1 q)) ((m ((c : Thread nD τ).loc main_arg5)) (ix1 q)) (h4 (ix1 q)) (h5 (ix1 q)) 100000 (10995116 / 2 ^ 40)
    (by simp) (by norm_num) (by positivity) r

end Cert.Bridge

end
-- ==== Proof.lean ====
/-
  A graph-convolution layer followed by training-mode batch normalisation and a rectifier, as a kernel of three pallas
  regions among host operations, against its jnp reference, at the ideal instance (floats are extended reals, every
  operation exact, a change of float format the identity).

  Both programs build the same array `out` [100000, 128]: per-edge normalisation from the degrees, the matrix product
  `h = x · W`, the rows of `h` gathered at the edge sources, scaled, scatter-added at the edge targets, plus the bias.
  The kernel computes `h` in a pallas region, 25 row blocks of 4000, each a block product into a zero accumulator;
  the reference by one whole `dot_general`: the same sums of products, entry by entry. Everything else up to `out`
  is the same chain of host operations of the same values.

  Then the batch normalisation. The kernel accumulates, over the 25 row blocks, the column sums `S` and the column
  sums of squares `T` of `out` (a second region), forms on the host `mean = S / n`,
  `scale = γ · rsqrt (T / n − mean² + ε)`, `shift = β − mean · scale`, and stores `max (out · scale + shift, 0)`
  (a third region). The reference forms `μ = (0 + S) / n`, the variance as the mean of `(out − μ)²`, and
  `max ((out − μ) · rsqrt (var + ε) · γ + β, 0)`. For REAL entries the two variances are one number (expand the
  square; the sum of the constant `μ²` over the `n` rows is `n μ²`), it is non-negative so that `var + ε > 0`
  and the reciprocal square root is a real, and the two affine forms are equal by distributivity. None of this holds
  at ±∞, so the precondition is used: every float input is finite, hence every entry of `out` is a real (finite sums
  of products of reals; the reciprocal square root of a positive degree, or zero; gathers read entries of their
  operand; a scatter-add adds finitely many updates), whatever the integer edge list holds.

  The idealization rewrote no operation, so the second-last conjunct is `True`. The three frames are the generated
  frame certificates (the reference's: its generated run with the result dropped).
-/
import proofs.«114614_j66383014527704_1_alg».proof.Defs
import proofs.«114614_j66383014527704_1_alg».proof.Proof.Gen.Kernel
import proofs.«114614_j66383014527704_1_alg».proof.Proof.Gen.Kernel.Skeleton
import proofs.«114614_j66383014527704_1_alg».proof.Proof.Gen.Kernel.Launch
import proofs.«114614_j66383014527704_1_alg».proof.Proof.Gen.Kernel.Points
import proofs.«114614_j66383014527704_1_alg».proof.Proof.Gen.Kernel.Frame
import proofs.«114614_j66383014527704_1_alg».proof.Proof.Gen.KernelIdeal
import proofs.«114614_j66383014527704_1_alg».proof.Proof.Gen.KernelIdeal.Skeleton
import proofs.«114614_j66383014527704_1_alg».proof.Proof.Gen.KernelIdeal.Launch
import proofs.«114614_j66383014527704_1_alg».proof.Proof.Gen.KernelIdeal.Points
import proofs.«114614_j66383014527704_1_alg».proof.Proof.Gen.KernelIdeal.Frame
import proofs.«114614_j66383014527704_1_alg».proof.Proof.Gen.ReferenceIdeal
import proofs.«114614_j66383014527704_1_alg».proof.Proof.Gen.Pre_finite_inputs
import proofs.«114614_j66383014527704_1_alg».proof.Proof.RefRun
import proofs.«114614_j66383014527704_1_alg».proof.Proof.RefRead
import proofs.«114614_j66383014527704_1_alg».proof.Proof.KRun
import proofs.«114614_j66383014527704_1_alg».proof.Proof.KValue
import proofs.«114614_j66383014527704_1_alg».proof.Proof.FinitePre
import proofs.«114614_j66383014527704_1_alg».proof.Proof.Bridge
import Idealize.ShloMosaic.Adequacy
import Idealize.ShloMosaic.Init

set_option maxRecDepth 16384

noncomputable section

namespace Cert.Proof

open Idealize.ShloMosaic Idealize.SL.Sem

/-- The word-level kernel terminates, nothing faulting, its arguments unchanged: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under finite float inputs, both programs run and end with the same
    result array: the kernel's run names its result, the reference's run its own, and entry by entry they agree. -/
theorem algebraic : Cert.algebraic_KernelIdeal_ReferenceIdeal := by
  intro m ρ m' ρ' hpre hagree
  refine ⟨fun c => Cert.KernelIdeal.Gen.W8 m ρ c (Proc.devRef .tc Cert.KernelIdeal.main_v64),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨h0, h2, h3, h4, h5⟩ := Cert.FinitePre.reals_of_pre _ _ _ _ _ _ (hpre c)
  rw [Cert.ReferenceIdeal.Read.val_main_v73_eq, a0, a1, a2, a3, a4, a5]
  refine Eq.trans ?_ (Cert.KernelIdeal.KValue.result_eq m ρ c).symm
  exact (funext fun i => Cert.Bridge.entry_eq m c h0 h2 h3 h4 h5 i).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
